-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x768 : Shape := ⟨3, ![4, 1024, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S_ : Shape := ⟨0, ![]⟩

class Facts : Prop where
  bcast_S_S4x1024x768 : S_.BroadcastsInDim S4x1024x768 (![] : Fin 0 → Fin S4x1024x768.rank)
  reducesTo_S4x1024x768_S_d0_1_2 : S4x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_

variable [Facts]

def fn_part2 {F : FTy → Type} [FloatOps F] (main_arg7 : FVec F S768x3072 .f32) (main_arg8 : FVec F S768 .f32) (main_v33 : IVec S_ 1) : IVec S_ 1 :=
  let main_v34 : FVec F S768x3072 .f32 := Host.absf main_arg7
  let main_cst_12 : FVec F S_ .f32 := constant S_ .f32 0x7F800000#32
  let main_v35 : FVec F S768x3072 .f32 := broadcastInDim S768x3072 ![] bcast_S_S768x3072 main_cst_12
  let main_v36 : IVec S768x3072 1 := cmpf .olt main_v34 main_v35
  let main_c_13 : IVec S_ 1 := constantI S_ 1 1#1
  let main_v37 : IVec S_ 1 := (fun x v => Host.reduce IntOp.andi x v reducesTo_S768x3072_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S768 .f32) (main_arg5 : FVec F S3072x768 .f32) (main_arg6 : FVec F S3072 .f32) (main_arg7 : FVec F S768x3072 .f32) (main_arg8 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S3072x768 .f32 := Host.absf main_arg5
  let main_cst_8 : FVec F S_ .f32 := constant S_ .f32 0x7F800000#32
  let main_v25 : FVec F S3072x768 .f32 := broadcastInDim S3072x768 ![] bcast_S_S3072x768 main_cst_8
  let main_v26 : IVec S3072x768 1 := cmpf .olt main_v24 main_v25
  let main_c_9 : IVec S_ 1 := constantI S_ 1 1#1
  let main_v27 : IVec S_ 1 := (fun x v => Host.reduce IntOp.andi x v reducesTo_S3072x768_S_d0_1 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_arg8 main_v33

def fn {F : FTy → Type} [FloatOps F] (main_arg0 : FVec F S4x1024x768 .f32) (main_arg1 : FVec F S2304x768 .f32) (main_arg2 : FVec F S2304 .f32) (main_arg3 : FVec F S768x768 .f32) (main_arg4 : FVec F S768 .f32) (main_arg5 : FVec F S3072x768 .f32) (main_arg6 : FVec F S3072 .f32) (main_arg7 : FVec F S768x3072 .f32) (main_arg8 : FVec F S768 .f32) : IVec S_ 1 :=
  let main_v0 : FVec F S4x1024x768 .f32 := Host.absf main_arg0
  let main_cst : FVec F S_ .f32 := constant S_ .f32 0x7F800000#32
  let main_v1 : FVec F S4x1024x768 .f32 := broadcastInDim S4x1024x768 ![] bcast_S_S4x1024x768 main_cst
  let main_v2 : IVec S4x1024x768 1 := cmpf .olt main_v0 main_v1
  let main_c : IVec S_ 1 := constantI S_ 1 1#1
  let main_v3 : IVec S_ 1 := (fun x v => Host.reduce IntOp.andi x v reducesTo_S4x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_v13 main_v16
-- ==== Kernel.lean ====
abbrev S4x1024x768 : Shape := ⟨3, ![4, 1024, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S1x2304 : Shape := ⟨2, ![1, 2304]⟩
abbrev S1x1024x768 : Shape := ⟨3, ![1, 1024, 768]⟩
abbrev S1024x768 : Shape := ⟨2, ![1024, 768]⟩
abbrev S1024x2304 : Shape := ⟨2, ![1024, 2304]⟩
abbrev S1024x64 : Shape := ⟨2, ![1024, 64]⟩
abbrev S1024x1024 : Shape := ⟨2, ![1024, 1024]⟩
abbrev S4096x768 : Shape := ⟨2, ![4096, 768]⟩
abbrev S1x768 : Shape := ⟨2, ![1, 768]⟩
abbrev S1x3072 : Shape := ⟨2, ![1, 3072]⟩
abbrev S512x768 : Shape := ⟨2, ![512, 768]⟩
abbrev S512x3072 : Shape := ⟨2, ![512, 3072]⟩

abbrev nBuf : Space → Nat
  | .hbm => 18
  | .vmem => 18
  | .smem => 0
  | _ => 0

abbrev bufTy : (tb : Table) → Fin (tcTables nBuf tb) → BufTy
  | .hbm, ⟨0, _⟩ => ⟨S4x1024x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S3072x768, .f32⟩
  | .hbm, ⟨6, _⟩ => ⟨S3072, .f32⟩
  | .hbm, ⟨7, _⟩ => ⟨S768x3072, .f32⟩
  | .hbm, ⟨8, _⟩ => ⟨S768, .f32⟩
  | .hbm, ⟨9, _⟩ => ⟨S1x2304, .f32⟩
  | .hbm, ⟨10, _⟩ => ⟨S4x1024x768, .f32⟩
  | .hbm, ⟨11, _⟩ => ⟨S4096x768, .f32⟩
  | .hbm, ⟨12, _⟩ => ⟨S4096x768, .f32⟩
  | .hbm, ⟨13, _⟩ => ⟨S1x768, .f32⟩
  | .hbm, ⟨14, _⟩ => ⟨S1x3072, .f32⟩
  | .hbm, ⟨15, _⟩ => ⟨S1x768, .f32⟩
  | .hbm, ⟨16, _⟩ => ⟨S4096x768, .f32⟩
  | .hbm, ⟨17, _⟩ => ⟨S4x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S2304x768, .f32⟩
  | .local _ .vmem, ⟨3, _⟩ => ⟨S1x2304, .f32⟩
  | .local _ .vmem, ⟨4, _⟩ => ⟨S1x1024x768, .f32⟩
  | .local _ .vmem, ⟨5, _⟩ => ⟨S1x1024x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S768x768, .f32⟩
  | .local _ .vmem, ⟨11, _⟩ => ⟨S1x768, .f32⟩
  | .local _ .vmem, ⟨12, _⟩ => ⟨S3072x768, .f32⟩
  | .local _ .vmem, ⟨13, _⟩ => ⟨S1x3072, .f32⟩
  | .local _ .vmem, ⟨14, _⟩ => ⟨S768x3072, .f32⟩
  | .local _ .vmem, ⟨15, _⟩ => ⟨S1x768, .f32⟩
  | .local _ .vmem, ⟨16, _⟩ => ⟨S512x768, .f32⟩
  | .local _ .vmem, ⟨17, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3072x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3072 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S768x3072 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S2304_S1x2304 : S2304.ShapeCasts S1x2304
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S2304x768_S2304x768_0_0 : ∀ a, (![0, 0] : Fin 2 → Nat) a + S2304x768.size a ≤ S2304x768.size a
  h_S2304x768 : 0 < S2304x768.numel
  inb_S1x2304_S1x2304_0_0 : ∀ a, (![0, 0] : Fin 2 → Nat) a + S1x2304.size a ≤ S1x2304.size a
  h_S1x2304 : 0 < S1x2304.numel
  shapeCasts_S1x2304_S2304 : S1x2304.ShapeCasts S2304
  broadcasts_S1x2304_S1024x2304 : S1x2304.Broadcasts S1024x2304
  slices_S1024x2304_o0_0_S1024x64 : S1024x2304.Slices ![0, 0] S1024x64
  slices_S1024x2304_o0_64_S1024x64 : S1024x2304.Slices ![0, 64] S1024x64
  slices_S1024x2304_o0_128_S1024x64 : S1024x2304.Slices ![0, 128] S1024x64
  slices_S1024x2304_o0_192_S1024x64 : S1024x2304.Slices ![0, 192] S1024x64
  slices_S1024x2304_o0_256_S1024x64 : S1024x2304.Slices ![0, 256] S1024x64
  slices_S1024x2304_o0_320_S1024x64 : S1024x2304.Slices ![0, 320] S1024x64
  slices_S1024x2304_o0_384_S1024x64 : S1024x2304.Slices ![0, 384] S1024x64
  slices_S1024x2304_o0_448_S1024x64 : S1024x2304.Slices ![0, 448] S1024x64
  slices_S1024x2304_o0_512_S1024x64 : S1024x2304.Slices ![0, 512] S1024x64
  slices_S1024x2304_o0_576_S1024x64 : S1024x2304.Slices ![0, 576] S1024x64
  slices_S1024x2304_o0_640_S1024x64 : S1024x2304.Slices ![0, 640] S1024x64
  slices_S1024x2304_o0_704_S1024x64 : S1024x2304.Slices ![0, 704] S1024x64
  slices_S1024x2304_o0_768_S1024x64 : S1024x2304.Slices ![0, 768] S1024x64
  slices_S1024x2304_o0_832_S1024x64 : S1024x2304.Slices ![0, 832] S1024x64
  slices_S1024x2304_o0_896_S1024x64 : S1024x2304.Slices ![0, 896] S1024x64
  slices_S1024x2304_o0_960_S1024x64 : S1024x2304.Slices ![0, 960] S1024x64
  slices_S1024x2304_o0_1024_S1024x64 : S1024x2304.Slices ![0, 1024] S1024x64
  slices_S1024x2304_o0_1088_S1024x64 : S1024x2304.Slices ![0, 1088] S1024x64
  slices_S1024x2304_o0_1152_S1024x64 : S1024x2304.Slices ![0, 1152] S1024x64
  slices_S1024x2304_o0_1216_S1024x64 : S1024x2304.Slices ![0, 1216] S1024x64
  slices_S1024x2304_o0_1280_S1024x64 : S1024x2304.Slices ![0, 1280] S1024x64
  slices_S1024x2304_o0_1344_S1024x64 : S1024x2304.Slices ![0, 1344] S1024x64
  slices_S1024x2304_o0_1408_S1024x64 : S1024x2304.Slices ![0, 1408] S1024x64
  slices_S1024x2304_o0_1472_S1024x64 : S1024x2304.Slices ![0, 1472] S1024x64
  slices_S1024x2304_o0_1536_S1024x64 : S1024x2304.Slices ![0, 1536] S1024x64
  slices_S1024x2304_o0_1600_S1024x64 : S1024x2304.Slices ![0, 1600] S1024x64
  slices_S1024x2304_o0_1664_S1024x64 : S1024x2304.Slices ![0, 1664] S1024x64
  slices_S1024x2304_o0_1728_S1024x64 : S1024x2304.Slices ![0, 1728] S1024x64
  slices_S1024x2304_o0_1792_S1024x64 : S1024x2304.Slices ![0, 1792] S1024x64
  slices_S1024x2304_o0_1856_S1024x64 : S1024x2304.Slices ![0, 1856] S1024x64
  slices_S1024x2304_o0_1920_S1024x64 : S1024x2304.Slices ![0, 1920] S1024x64
  slices_S1024x2304_o0_1984_S1024x64 : S1024x2304.Slices ![0, 1984] S1024x64
  slices_S1024x2304_o0_2048_S1024x64 : S1024x2304.Slices ![0, 2048] S1024x64
  slices_S1024x2304_o0_2112_S1024x64 : S1024x2304.Slices ![0, 2112] S1024x64
  slices_S1024x2304_o0_2176_S1024x64 : S1024x2304.Slices ![0, 2176] S1024x64
  slices_S1024x2304_o0_2240_S1024x64 : S1024x2304.Slices ![0, 2240] S1024x64
  concatenates_S1024x64_S1024x64_S1024x64_S1024x64_S1024x64_S1024x64_S1024x64_S1024x64_S1024x64_S1024x64_S1024x64_S1024x64_S1024x768_d1 : Shape.Concatenates [S1024x64, S1024x64, S1024x64, S1024x64, S1024x64, S1024x64, S1024x64, S1024x64, S1024x64, S1024x64, S1024x64, S1024x64] S1024x768 1
  shapeCasts_S1024x768_S1x1024x768 : S1024x768.ShapeCasts S1x1024x768
  shapeCasts_S4x1024x768_S4096x768 : S4x1024x768.ShapeCasts S4096x768
  shapeCasts_S768_S1x768 : S768.ShapeCasts S1x768
  shapeCasts_S3072_S1x3072 : S3072.ShapeCasts S1x3072
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S768 : S1x768.ShapeCasts S768
  broadcasts_S1x768_S512x768 : S1x768.Broadcasts S512x768
  inb_S3072x768_S3072x768_0_0 : ∀ a, (![0, 0] : Fin 2 → Nat) a + S3072x768.size a ≤ S3072x768.size a
  h_S3072x768 : 0 < S3072x768.numel
  inb_S1x3072_S1x3072_0_0 : ∀ a, (![0, 0] : Fin 2 → Nat) a + S1x3072.size a ≤ S1x3072.size a
  h_S1x3072 : 0 < S1x3072.numel
  shapeCasts_S1x3072_S3072 : S1x3072.ShapeCasts S3072
  broadcasts_S1x3072_S512x3072 : S1x3072.Broadcasts S512x3072
  inb_S768x3072_S768x3072_0_0 : ∀ a, (![0, 0] : Fin 2 → Nat) a + S768x3072.size a ≤ S768x3072.size a
  h_S768x3072 : 0 < S768x3072.numel
  shapeCasts_S4096x768_S4x1024x768 : S4096x768.ShapeCasts S4x1024x768
  dot_S1024x768_S2304x768_S1024x2304_1_1_0_0_n_n_wf : DotDims.WF S1024x768 S2304x768 S1024x2304 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S512x768_S768x768_S512x768_1_1_0_0_n_n_wf : DotDims.WF S512x768 S768x768 S512x768 [1] [1] [0] [0] [] []
  dot_S512x768_S3072x768_S512x3072_1_1_0_0_n_n_wf : DotDims.WF S512x768 S3072x768 S512x3072 [1] [1] [0] [0] [] []
  dot_S512x3072_S768x3072_S512x768_1_1_0_0_n_n_wf : DotDims.WF S512x3072 S768x3072 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S4x1024x768.size a
  hwx0_0 : ∀ i : grid0.Coords, EltTy.bits .f32 = 32 ∨ (Rect.block (s := S4x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .f32 = 32 ∨ (Rect.block (s := S2304x768) S2304x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x768.size a ≤ S4x1024x768.size a
  hwx0_3 : ∀ i : grid0.Coords, EltTy.bits .f32 = 32 ∨ (Rect.block (s := S4x1024x768) S1x1024x768.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S4096x768.size a
  hwx1_0 : ∀ i : grid1.Coords, EltTy.bits .f32 = 32 ∨ (Rect.block (s := S4096x768) S512x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x768.size a ≤ S4096x768.size a
  hwx1_1 : ∀ i : grid1.Coords, EltTy.bits .f32 = 32 ∨ (Rect.block (s := S4096x768) S512x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x768.size a ≤ S768x768.size a
  hwx1_2 : ∀ i : grid1.Coords, EltTy.bits .f32 = 32 ∨ (Rect.block (s := S768x768) S768x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3072x768.size a ≤ S3072x768.size a
  hwx1_4 : ∀ i : grid1.Coords, EltTy.bits .f32 = 32 ∨ (Rect.block (s := S3072x768) S3072x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x3072.size a ≤ S1x3072.size a
  hwx1_5 : ∀ i : grid1.Coords, EltTy.bits .f32 = 32 ∨ (Rect.block (s := S1x3072) S1x3072.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S768x3072.size a ≤ S768x3072.size a
  hwx1_6 : ∀ i : grid1.Coords, EltTy.bits .f32 = 32 ∨ (Rect.block (s := S768x3072) S768x3072.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x768.size a ≤ S1x768.size a
  hwx1_7 : ∀ i : grid1.Coords, EltTy.bits .f32 = 32 ∨ (Rect.block (s := S1x768) S1x768.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x768.size a ≤ S4096x768.size a
  hwx1_8 : ∀ i : grid1.Coords, EltTy.bits .f32 = 32 ∨ (Rect.block (s := S4096x768) S512x768.size (cc1_transform_8 i) (hinb1_8 i)).WholeWords (EltTy.packing .f32)

variable [Facts₀]

def dot_S1024x768_S2304x768_S1024x2304_1_1_0_0_n_n : DotDims S1024x768 S2304x768 S1024x2304 where
  lhsContracting := [1]
  rhsContracting := [1]
  lhsNonContracting := [0]
  rhsNonContracting := [0]
  lhsBatch := []
  rhsBatch := []
  wf := dot_S1024x768_S2304x768_S1024x2304_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf
def dot_S512x768_S3072x768_S512x3072_1_1_0_0_n_n : DotDims S512x768 S3072x768 S512x3072 where
  lhsContracting := [1]
  rhsContracting := [1]
  lhsNonContracting := [0]
  rhsNonContracting := [0]
  lhsBatch := []
  rhsBatch := []
  wf := dot_S512x768_S3072x768_S512x3072_1_1_0_0_n_n_wf
def dot_S512x3072_S768x3072_S512x768_1_1_0_0_n_n : DotDims S512x3072 S768x3072 S512x768 where
  lhsContracting := [1]
  rhsContracting := [1]
  lhsNonContracting := [0]
  rhsNonContracting := [0]
  lhsBatch := []
  rhsBatch := []
  wf := dot_S512x3072_S768x3072_S512x768_1_1_0_0_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S768x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S3072x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x3072.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S768x3072.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1x768.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7) S512x768.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4x1024x768 : Shape := ⟨3, ![4, 1024, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S12x192x768 : Shape := ⟨3, ![12, 192, 768]⟩
abbrev S12x192 : Shape := ⟨2, ![12, 192]⟩
abbrev S12x64x768 : Shape := ⟨3, ![12, 64, 768]⟩
abbrev S12x64 : Shape := ⟨2, ![12, 64]⟩
abbrev S12x64x4x1024 : Shape := ⟨4, ![12, 64, 4, 1024]⟩
abbrev S4x12x1024x64 : Shape := ⟨4, ![4, 12, 1024, 64]⟩
abbrev S1x12x1x64 : Shape := ⟨4, ![1, 12, 1, 64]⟩
abbrev S_ : Shape := ⟨0, ![]⟩
abbrev S4x12x1024x1024 : Shape := ⟨4, ![4, 12, 1024, 1024]⟩
abbrev S4x1024x12x64 : Shape := ⟨4, ![4, 1024, 12, 64]⟩
abbrev S1x1x768 : Shape := ⟨3, ![1, 1, 768]⟩
abbrev S4x1024x3072 : Shape := ⟨3, ![4, 1024, 3072]⟩
abbrev S1x1x3072 : Shape := ⟨3, ![1, 1, 3072]⟩

abbrev nBuf : Space → Nat
  | .hbm => 208
  | .vmem => 0
  | .smem => 0
  | _ => 0

abbrev hbmTy0_0 (i : Nat) : BufTy := match i % 128 with
  | 0 => ⟨S4x1024x768, .f32⟩
  | 1 => ⟨S2304x768, .f32⟩
  | 2 => ⟨S2304, .f32⟩
  | 3 => ⟨S768x768, .f32⟩
  | 4 => ⟨S768, .f32⟩
  | 5 => ⟨S3072x768, .f32⟩
  | 6 => ⟨S3072, .f32⟩
  | 7 => ⟨S768x3072, .f32⟩
  | 8 => ⟨S768, .f32⟩
  | 9 => ⟨S12x192x768, .f32⟩
  | 10 => ⟨S12x192, .f32⟩
  | 11 => ⟨S12x64x768, .f32⟩
  | 12 => ⟨S12x64x768, .f32⟩
  | 13 => ⟨S12x64x768, .f32⟩
  | 14 => ⟨S12x64, .f32⟩
  | 15 => ⟨S12x64, .f32⟩
  | 16 => ⟨S12x64, .f32⟩
  | 17 => ⟨S12x64x4x1024, .f32⟩
  | 18 => ⟨S4x12x1024x64, .f32⟩
  | 19 => ⟨S1x12x1x64, .f32⟩
  | 20 => ⟨S_, .f32⟩
  | 21 => ⟨S1x12x1x64, .f32⟩
  | 22 => ⟨S1x12x1x64, .f32⟩
  | 23 => ⟨S4x12x1024x64, .f32⟩
  | 24 => ⟨S4x12x1024x64, .f32⟩
  | 25 => ⟨S_, .f32⟩
  | 26 => ⟨S4x12x1024x64, .f32⟩
  | 27 => ⟨S4x12x1024x64, .f32⟩
  | 28 => ⟨S4x12x1024x64, .f32⟩
  | 29 => ⟨S4x12x1024x64, .f32⟩
  | 30 => ⟨S4x12x1024x64, .f32⟩
  | 31 => ⟨S_, .f32⟩
  | 32 => ⟨S_, .f32⟩
  | 33 => ⟨S_, .f32⟩
  | 34 => ⟨S4x12x1024x64, .f32⟩
  | 35 => ⟨S4x12x1024x64, .f32⟩
  | 36 => ⟨S_, .f32⟩
  | 37 => ⟨S4x12x1024x64, .f32⟩
  | 38 => ⟨S4x12x1024x64, .f32⟩
  | 39 => ⟨S12x64x4x1024, .f32⟩
  | 40 => ⟨S4x12x1024x64, .f32⟩
  | 41 => ⟨S1x12x1x64, .f32⟩
  | 42 => ⟨S_, .f32⟩
  | 43 => ⟨S1x12x1x64, .f32⟩
  | 44 => ⟨S1x12x1x64, .f32⟩
  | 45 => ⟨S4x12x1024x64, .f32⟩
  | 46 => ⟨S4x12x1024x64, .f32⟩
  | 47 => ⟨S_, .f32⟩
  | 48 => ⟨S4x12x1024x64, .f32⟩
  | 49 => ⟨S4x12x1024x64, .f32⟩
  | 50 => ⟨S4x12x1024x64, .f32⟩
  | 51 => ⟨S4x12x1024x64, .f32⟩
  | 52 => ⟨S4x12x1024x64, .f32⟩
  | 53 => ⟨S_, .f32⟩
  | 54 => ⟨S_, .f32⟩
  | 55 => ⟨S_, .f32⟩
  | 56 => ⟨S4x12x1024x64, .f32⟩
  | 57 => ⟨S4x12x1024x64, .f32⟩
  | 58 => ⟨S_, .f32⟩
  | 59 => ⟨S4x12x1024x64, .f32⟩
  | 60 => ⟨S4x12x1024x64, .f32⟩
  | 61 => ⟨S12x64x4x1024, .f32⟩
  | 62 => ⟨S4x12x1024x64, .f32⟩
  | 63 => ⟨S1x12x1x64, .f32⟩
  | 64 => ⟨S_, .f32⟩
  | 65 => ⟨S1x12x1x64, .f32⟩
  | 66 => ⟨S1x12x1x64, .f32⟩
  | 67 => ⟨S4x12x1024x64, .f32⟩
  | 68 => ⟨S4x12x1024x64, .f32⟩
  | 69 => ⟨S_, .f32⟩
  | 70 => ⟨S4x12x1024x64, .f32⟩
  | 71 => ⟨S4x12x1024x64, .f32⟩
  | 72 => ⟨S4x12x1024x64, .f32⟩
  | 73 => ⟨S4x12x1024x64, .f32⟩
  | 74 => ⟨S4x12x1024x64, .f32⟩
  | 75 => ⟨S_, .f32⟩
  | 76 => ⟨S_, .f32⟩
  | 77 => ⟨S_, .f32⟩
  | 78 => ⟨S4x12x1024x64, .f32⟩
  | 79 => ⟨S4x12x1024x64, .f32⟩
  | 80 => ⟨S_, .f32⟩
  | 81 => ⟨S4x12x1024x64, .f32⟩
  | 82 => ⟨S4x12x1024x64, .f32⟩
  | 83 => ⟨S4x12x1024x1024, .f32⟩
  | 84 => ⟨S_, .f32⟩
  | 85 => ⟨S4x12x1024x1024, .f32⟩
  | 86 => ⟨S4x12x1024x1024, .f32⟩
  | 87 => ⟨S4x12x1024x1024, .f32⟩
  | 88 => ⟨S4x12x1024x1024, .f32⟩
  | 89 => ⟨S4x12x1024x1024, .f32⟩
  | 90 => ⟨S_, .f32⟩
  | 91 => ⟨S_, .f32⟩
  | 92 => ⟨S_, .f32⟩
  | 93 => ⟨S4x12x1024x1024, .f32⟩
  | 94 => ⟨S4x12x1024x1024, .f32⟩
  | 95 => ⟨S_, .f32⟩
  | 96 => ⟨S4x12x1024x1024, .f32⟩
  | 97 => ⟨S4x12x1024x1024, .f32⟩
  | 98 => ⟨S4x12x1024x64, .f32⟩
  | 99 => ⟨S_, .f32⟩
  | 100 => ⟨S4x12x1024x64, .f32⟩
  | 101 => ⟨S4x12x1024x64, .f32⟩
  | 102 => ⟨S4x12x1024x64, .f32⟩
  | 103 => ⟨S4x12x1024x64, .f32⟩
  | 104 => ⟨S4x12x1024x64, .f32⟩
  | 105 => ⟨S_, .f32⟩
  | 106 => ⟨S_, .f32⟩
  | 107 => ⟨S_, .f32⟩
  | 108 => ⟨S4x12x1024x64, .f32⟩
  | 109 => ⟨S4x12x1024x64, .f32⟩
  | 110 => ⟨S_, .f32⟩
  | 111 => ⟨S4x12x1024x64, .f32⟩
  | 112 => ⟨S4x12x1024x64, .f32⟩
  | 113 => ⟨S4x1024x12x64, .f32⟩
  | 114 => ⟨S4x1024x768, .f32⟩
  | 115 => ⟨S4x1024x768, .f32⟩
  | 116 => ⟨S_, .f32⟩
  | 117 => ⟨S768, .f32⟩
  | 118 => ⟨S768, .f32⟩
  | 119 => ⟨S1x1x768, .f32⟩
  | 120 => ⟨S4x1024x768, .f32⟩
  | 121 => ⟨S4x1024x768, .f32⟩
  | 122 => ⟨S_, .f32⟩
  | 123 => ⟨S4x1024x768, .f32⟩
  | 124 => ⟨S4x1024x768, .f32⟩
  | 125 => ⟨S4x1024x768, .f32⟩
  | 126 => ⟨S4x1024x768, .f32⟩
  | 127 => ⟨S4x1024x768, .f32⟩
  | _ => ⟨S4x1024x768, .f32⟩

abbrev hbmTy0_1 (i : Nat) : BufTy := match i % 128 with
  | 0 => ⟨S_, .f32⟩
  | 1 => ⟨S_, .f32⟩
  | 2 => ⟨S_, .f32⟩
  | 3 => ⟨S4x1024x768, .f32⟩
  | 4 => ⟨S4x1024x768, .f32⟩
  | 5 => ⟨S_, .f32⟩
  | 6 => ⟨S4x1024x768, .f32⟩
  | 7 => ⟨S4x1024x768, .f32⟩
  | 8 => ⟨S_, .f32⟩
  | 9 => ⟨S4x1024x768, .f32⟩
  | 10 => ⟨S4x1024x768, .f32⟩
  | 11 => ⟨S4x1024x768, .f32⟩
  | 12 => ⟨S4x1024x768, .f32⟩
  | 13 => ⟨S4x1024x768, .f32⟩
  | 14 => ⟨S_, .f32⟩
  | 15 => ⟨S_, .f32⟩
  | 16 => ⟨S_, .f32⟩
  | 17 => ⟨S4x1024x768, .f32⟩
  | 18 => ⟨S4x1024x768, .f32⟩
  | 19 => ⟨S_, .f32⟩
  | 20 => ⟨S4x1024x768, .f32⟩
  | 21 => ⟨S4x1024x768, .f32⟩
  | 22 => ⟨S4x1024x768, .f32⟩
  | 23 => ⟨S4x1024x3072, .f32⟩
  | 24 => ⟨S_, .f32⟩
  | 25 => ⟨S3072, .f32⟩
  | 26 => ⟨S3072, .f32⟩
  | 27 => ⟨S1x1x3072, .f32⟩
  | 28 => ⟨S4x1024x3072, .f32⟩
  | 29 => ⟨S4x1024x3072, .f32⟩
  | 30 => ⟨S_, .f32⟩
  | 31 => ⟨S4x1024x3072, .f32⟩
  | 32 => ⟨S4x1024x3072, .f32⟩
  | 33 => ⟨S4x1024x3072, .f32⟩
  | 34 => ⟨S4x1024x3072, .f32⟩
  | 35 => ⟨S4x1024x3072, .f32⟩
  | 36 => ⟨S_, .f32⟩
  | 37 => ⟨S_, .f32⟩
  | 38 => ⟨S_, .f32⟩
  | 39 => ⟨S4x1024x3072, .f32⟩
  | 40 => ⟨S4x1024x3072, .f32⟩
  | 41 => ⟨S_, .f32⟩
  | 42 => ⟨S4x1024x3072, .f32⟩
  | 43 => ⟨S4x1024x3072, .f32⟩
  | 44 => ⟨S4x1024x768, .f32⟩
  | 45 => ⟨S_, .f32⟩
  | 46 => ⟨S768, .f32⟩
  | 47 => ⟨S768, .f32⟩
  | 48 => ⟨S1x1x768, .f32⟩
  | 49 => ⟨S4x1024x768, .f32⟩
  | 50 => ⟨S4x1024x768, .f32⟩
  | 51 => ⟨S_, .f32⟩
  | 52 => ⟨S4x1024x768, .f32⟩
  | 53 => ⟨S4x1024x768, .f32⟩
  | 54 => ⟨S4x1024x768, .f32⟩
  | 55 => ⟨S4x1024x768, .f32⟩
  | 56 => ⟨S4x1024x768, .f32⟩
  | 57 => ⟨S_, .f32⟩
  | 58 => ⟨S_, .f32⟩
  | 59 => ⟨S_, .f32⟩
  | 60 => ⟨S4x1024x768, .f32⟩
  | 61 => ⟨S4x1024x768, .f32⟩
  | 62 => ⟨S_, .f32⟩
  | 63 => ⟨S4x1024x768, .f32⟩
  | 64 => ⟨S4x1024x768, .f32⟩
  | 65 => ⟨S_, .f32⟩
  | 66 => ⟨S4x1024x768, .f32⟩
  | 67 => ⟨S4x1024x768, .f32⟩
  | 68 => ⟨S4x1024x768, .f32⟩
  | 69 => ⟨S4x1024x768, .f32⟩
  | 70 => ⟨S4x1024x768, .f32⟩
  | 71 => ⟨S_, .f32⟩
  | 72 => ⟨S_, .f32⟩
  | 73 => ⟨S_, .f32⟩
  | 74 => ⟨S4x1024x768, .f32⟩
  | 75 => ⟨S4x1024x768, .f32⟩
  | 76 => ⟨S_, .f32⟩
  | 77 => ⟨S4x1024x768, .f32⟩
  | 78 => ⟨S4x1024x768, .f32⟩
  | 79 => ⟨S4x1024x768, .f32⟩
  | _ => ⟨S4x1024x768, .f32⟩

abbrev hbmTy (i : Nat) : BufTy := match i / 128 with
  | 0 => hbmTy0_0 i
  | 1 => hbmTy0_1 i
  | _ => ⟨S4x1024x768, .f32⟩

abbrev bufTy : (tb : Table) → Fin (tcTables nBuf tb) → BufTy
  | .hbm, ⟨i, _⟩ => hbmTy i
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_cst_10 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v46 : Ref sig .tc := ⟨.hbm, 82, rfl⟩
abbrev main_v47 : Ref sig .tc := ⟨.hbm, 83, rfl⟩
abbrev main_cst_11 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_12 : Ref sig .tc := ⟨.hbm, 90, rfl⟩
abbrev main_cst_13 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_v53 : Ref sig .tc := ⟨.hbm, 97, rfl⟩
abbrev main_v54 : Ref sig .tc := ⟨.hbm, 98, rfl⟩
abbrev main_cst_14 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_15 : Ref sig .tc := ⟨.hbm, 105, rfl⟩
abbrev main_cst_16 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_17 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_18 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_19 : Ref sig .tc := ⟨.hbm, 128, rfl⟩
abbrev main_cst_20 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_v74 : Ref sig .tc := ⟨.hbm, 135, rfl⟩
abbrev main_cst_21 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_22 : Ref sig .tc := ⟨.hbm, 142, rfl⟩
abbrev main_cst_23 : Ref sig .tc := ⟨.hbm, 143, rfl⟩
abbrev main_call6_v0 : Ref sig .tc := ⟨.hbm, 144, rfl⟩
abbrev main_call6_v1 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_cst_24 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_cst_25 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_cst_26 : Ref sig .tc := ⟨.hbm, 164, rfl⟩
abbrev main_cst_27 : Ref sig .tc := ⟨.hbm, 165, rfl⟩
abbrev main_call7_v0 : Ref sig .tc := ⟨.hbm, 166, rfl⟩
abbrev main_call7_v1 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_v93 : Ref sig .tc := ⟨.hbm, 171, rfl⟩
abbrev main_v94 : Ref sig .tc := ⟨.hbm, 172, rfl⟩
abbrev main_cst_28 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_cst_29 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_cst_30 : Ref sig .tc := ⟨.hbm, 185, rfl⟩
abbrev main_cst_31 : Ref sig .tc := ⟨.hbm, 186, rfl⟩
abbrev main_call8_v0 : Ref sig .tc := ⟨.hbm, 187, rfl⟩
abbrev main_call8_v1 : Ref sig .tc := ⟨.hbm, 188, rfl⟩
abbrev main_call8_v2 : Ref sig .tc := ⟨.hbm, 189, rfl⟩
abbrev main_call8_v3 : Ref sig .tc := ⟨.hbm, 190, rfl⟩
abbrev main_call8_v4 : Ref sig .tc := ⟨.hbm, 191, rfl⟩
abbrev main_v105 : Ref sig .tc := ⟨.hbm, 192, rfl⟩
abbrev main_cst_32 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_cst_33 : Ref sig .tc := ⟨.hbm, 199, rfl⟩
abbrev main_cst_34 : Ref sig .tc := ⟨.hbm, 200, rfl⟩
abbrev main_call9_v0 : Ref sig .tc := ⟨.hbm, 201, rfl⟩
abbrev main_call9_v1 : Ref sig .tc := ⟨.hbm, 202, rfl⟩
abbrev main_call9_v2 : Ref sig .tc := ⟨.hbm, 203, rfl⟩
abbrev main_call9_v3 : Ref sig .tc := ⟨.hbm, 204, rfl⟩
abbrev main_call9_v4 : Ref sig .tc := ⟨.hbm, 205, rfl⟩
abbrev main_v111 : Ref sig .tc := ⟨.hbm, 206, rfl⟩
abbrev main_v112 : Ref sig .tc := ⟨.hbm, 207, rfl⟩

abbrev nD : Nat := 1
abbrev τ : Topo := Topo.v7x

variable {F : FTy → Type} [FloatOps F]

class Facts₀ : Prop where
  shapeCasts_S2304x768_S12x192x768 : S2304x768.ShapeCasts S12x192x768
  shapeCasts_S2304_S12x192 : S2304.ShapeCasts S12x192
  slices_S12x192x768_S12x64x768_0_0_0 : S12x192x768.Slices ![0, 0, 0] S12x64x768
  slices_S12x192x768_S12x64x768_0_64_0 : S12x192x768.Slices ![0, 64, 0] S12x64x768
  slices_S12x192x768_S12x64x768_0_128_0 : S12x192x768.Slices ![0, 128, 0] S12x64x768
  slices_S12x192_S12x64_0_0 : S12x192.Slices ![0, 0] S12x64
  slices_S12x192_S12x64_0_64 : S12x192.Slices ![0, 64] S12x64
  slices_S12x192_S12x64_0_128 : S12x192.Slices ![0, 128] S12x64
  transposes_S12x64x4x1024_S4x12x1024x64_2_0_3_1 : S12x64x4x1024.Transposes [2, 0, 3, 1] S4x12x1024x64
  bcast_S12x64_S1x12x1x64_1_3 : S12x64.BroadcastsInDim S1x12x1x64 (![1, 3] : Fin 2 → Fin S1x12x1x64.rank)
  bcast_S_S1x12x1x64 : S_.BroadcastsInDim S1x12x1x64 (![] : Fin 0 → Fin S1x12x1x64.rank)
  bcast_S1x12x1x64_S4x12x1024x64_0_1_2_3 : S1x12x1x64.BroadcastsInDim S4x12x1024x64 (![0, 1, 2, 3] : Fin 4 → Fin S4x12x1024x64.rank)
  bcast_S_S4x12x1024x64 : S_.BroadcastsInDim S4x12x1024x64 (![] : Fin 0 → Fin S4x12x1024x64.rank)
  bcast_S_S4x12x1024x1024 : S_.BroadcastsInDim S4x12x1024x1024 (![] : Fin 0 → Fin S4x12x1024x1024.rank)
  transposes_S4x12x1024x64_S4x1024x12x64_0_2_1_3 : S4x12x1024x64.Transposes [0, 2, 1, 3] S4x1024x12x64
  shapeCasts_S4x1024x12x64_S4x1024x768 : S4x1024x12x64.ShapeCasts S4x1024x768
  bcast_S_S768 : S_.BroadcastsInDim S768 (![] : Fin 0 → Fin S768.rank)
  bcast_S768_S1x1x768_2 : S768.BroadcastsInDim S1x1x768 (![2] : Fin 1 → Fin S1x1x768.rank)
  bcast_S1x1x768_S4x1024x768_0_1_2 : S1x1x768.BroadcastsInDim S4x1024x768 (![0, 1, 2] : Fin 3 → Fin S4x1024x768.rank)
  bcast_S_S4x1024x768 : S_.BroadcastsInDim S4x1024x768 (![] : Fin 0 → Fin S4x1024x768.rank)
  bcast_S_S3072 : S_.BroadcastsInDim S3072 (![] : Fin 0 → Fin S3072.rank)
  bcast_S3072_S1x1x3072_2 : S3072.BroadcastsInDim S1x1x3072 (![2] : Fin 1 → Fin S1x1x3072.rank)
  bcast_S1x1x3072_S4x1024x3072_0_1_2 : S1x1x3072.BroadcastsInDim S4x1024x3072 (![0, 1, 2] : Fin 3 → Fin S4x1024x3072.rank)
  bcast_S_S4x1024x3072 : S_.BroadcastsInDim S4x1024x3072 (![] : Fin 0 → Fin S4x1024x3072.rank)
  dot_S12x64x768_S4x1024x768_S12x64x4x1024_2_2_01_01_n_n_wf : DotDims.WF S12x64x768 S4x1024x768 S12x64x4x1024 [2] [2] [0, 1] [0, 1] [] []
  dot_S4x12x1024x64_S4x12x1024x64_S4x12x1024x1024_3_3_2_2_01_01_wf : DotDims.WF S4x12x1024x64 S4x12x1024x64 S4x12x1024x1024 [3] [3] [2] [2] [0, 1] [0, 1]
  dot_S4x12x1024x1024_S4x12x1024x64_S4x12x1024x64_3_2_2_3_01_01_wf : DotDims.WF S4x12x1024x1024 S4x12x1024x64 S4x12x1024x64 [3] [2] [2] [3] [0, 1] [0, 1]
  dot_S4x1024x768_S768x768_S4x1024x768_2_1_01_0_n_n_wf : DotDims.WF S4x1024x768 S768x768 S4x1024x768 [2] [1] [0, 1] [0] [] []
  dot_S4x1024x768_S3072x768_S4x1024x3072_2_1_01_0_n_n_wf : DotDims.WF S4x1024x768 S3072x768 S4x1024x3072 [2] [1] [0, 1] [0] [] []
  dot_S4x1024x3072_S768x3072_S4x1024x768_2_1_01_0_n_n_wf : DotDims.WF S4x1024x3072 S768x3072 S4x1024x768 [2] [1] [0, 1] [0] [] []

variable [Facts₀]

def dot_S12x64x768_S4x1024x768_S12x64x4x1024_2_2_01_01_n_n : DotDims S12x64x768 S4x1024x768 S12x64x4x1024 where
  lhsContracting := [2]
  rhsContracting := [2]
  lhsNonContracting := [0, 1]
  rhsNonContracting := [0, 1]
  lhsBatch := []
  rhsBatch := []
  wf := dot_S12x64x768_S4x1024x768_S12x64x4x1024_2_2_01_01_n_n_wf
def dot_S4x12x1024x64_S4x12x1024x64_S4x12x1024x1024_3_3_2_2_01_01 : DotDims S4x12x1024x64 S4x12x1024x64 S4x12x1024x1024 where
  lhsContracting := [3]
  rhsContracting := [3]
  lhsNonContracting := [2]
  rhsNonContracting := [2]
  lhsBatch := [0, 1]
  rhsBatch := [0, 1]
  wf := dot_S4x12x1024x64_S4x12x1024x64_S4x12x1024x1024_3_3_2_2_01_01_wf
def dot_S4x12x1024x1024_S4x12x1024x64_S4x12x1024x64_3_2_2_3_01_01 : DotDims S4x12x1024x1024 S4x12x1024x64 S4x12x1024x64 where
  lhsContracting := [3]
  rhsContracting := [2]
  lhsNonContracting := [2]
  rhsNonContracting := [3]
  lhsBatch := [0, 1]
  rhsBatch := [0, 1]
  wf := dot_S4x12x1024x1024_S4x12x1024x64_S4x12x1024x64_3_2_2_3_01_01_wf
def dot_S4x1024x768_S768x768_S4x1024x768_2_1_01_0_n_n : DotDims S4x1024x768 S768x768 S4x1024x768 where
  lhsContracting := [2]
  rhsContracting := [1]
  lhsNonContracting := [0, 1]
  rhsNonContracting := [0]
  lhsBatch := []
  rhsBatch := []
  wf := dot_S4x1024x768_S768x768_S4x1024x768_2_1_01_0_n_n_wf
def dot_S4x1024x768_S3072x768_S4x1024x3072_2_1_01_0_n_n : DotDims S4x1024x768 S3072x768 S4x1024x3072 where
  lhsContracting := [2]
  rhsContracting := [1]
  lhsNonContracting := [0, 1]
  rhsNonContracting := [0]
  lhsBatch := []
  rhsBatch := []
  wf := dot_S4x1024x768_S3072x768_S4x1024x3072_2_1_01_0_n_n_wf
def dot_S4x1024x3072_S768x3072_S4x1024x768_2_1_01_0_n_n : DotDims S4x1024x3072 S768x3072 S4x1024x768 where
  lhsContracting := [2]
  rhsContracting := [1]
  lhsNonContracting := [0, 1]
  rhsNonContracting := [0]
  lhsBatch := []
  rhsBatch := []
  wf := dot_S4x1024x3072_S768x3072_S4x1024x768_2_1_01_0_n_n_wf

class Facts : Prop extends Facts₀ where

variable [Facts]
-- ==== Proof.Spec.lean ====
/-
  The mathematics of the quantized transformer block, stated once over plain coordinate functions
  (no program is imported here).

  Every activation is a fixed-point number carried in a float.  A re-quantization divides by a power of
  two (the word `d`), rounds down, and saturates between the two words `lo` and `hi`.  The block is

    qkv[s, j]     = rq16 ( Σ_d x[s, d] · Wqkv[j, d] + bqkv[j] · 2 )                    one batch element
    score[h,s,t]  = rq16 ( Σ_e qkv[s, 192h + e] · qkv[t, 192h + 64 + e] )              head h of 12
    z[s, 64h + e] = rq16 ( Σ_t score[h, s, t] · qkv[t, 192h + 128 + e] )
    x1[o]         = rq16 ( Σ_d z[d] · Wp[o, d] + bp[o] · 2 ) + rq16' ( x[o] )          one token
    hid[j]        = rq32 ( Σ_d x1[d] · W1[j, d] + b1[j] · 2 )
    out[o]        = rq31 ( Σ_j hid[j] · W2[o, j] + b2[o] · 4 ) + rq31' ( x1[o] )

  over the extended reals (a sum or product of extended reals is commutative and associative, which is all
  that the two programs' different arrangements of these sums need).  The last part of the file is about
  REAL values: a re-quantized number is always a real (it lies between two reals), and on a real `x` the
  straight-through rounding `x + (⌊x⌋ - x)` is `⌊x⌋`.
-/
import Idealize.ShloMosaic.PureOps.Ideal
import Idealize.ShloMosaic.Lib.ValueIdx

noncomputable section

open scoped BigOperators

namespace Cert.QBlock

open Idealize.ShloMosaic Idealize.ShloMosaic.ValueIdx

/-! ## Re-quantization -/

/-- Divide by the float whose f32 word is `d`, round down, saturate between the words `lo` and `hi`. -/
def requant (d lo hi : BitVec 32) (x : EReal) : EReal :=
  min (Ideal.ofBits .f32 hi) (max (Ideal.ofBits .f32 lo) (Ideal.liftRound Int.floor (Ideal.div x (Ideal.ofBits .f32 d))))

/-- by 2, to 16 bits -/
abbrev rq16 : EReal → EReal := requant 0x40000000#32 0xC7000000#32 0x46FFFE00#32
/-- by 1, to 16 bits -/
abbrev rq16u : EReal → EReal := requant 0x3F800000#32 0xC7000000#32 0x46FFFE00#32
/-- by 128, to 32 bits -/
abbrev rq32 : EReal → EReal := requant 0x43000000#32 0xCF000000#32 0x4F000000#32
/-- by 512, to 31 bits -/
abbrev rq31 : EReal → EReal := requant 0x44000000#32 0xCE800000#32 0x4E800000#32
/-- by 1, to 31 bits -/
abbrev rq31u : EReal → EReal := requant 0x3F800000#32 0xCE800000#32 0x4E800000#32

/-- the bias scale 2 -/
abbrev two : EReal := Ideal.ofBits .f32 0x40000000#32
/-- the bias scale 4 -/
abbrev four : EReal := Ideal.ofBits .f32 0x40800000#32

/-! ## Attention, one batch element -/

/-- column of head `h`'s query coordinate `e` in the fused projection -/
def colQ (h : Fin 12) (e : Fin 64) : Fin 2304 := ⟨192 * h.val + e.val, by have := h.isLt; have := e.isLt; omega⟩
/-- column of head `h`'s key coordinate `e` -/
def colK (h : Fin 12) (e : Fin 64) : Fin 2304 := ⟨192 * h.val + 64 + e.val, by have := h.isLt; have := e.isLt; omega⟩
/-- column of head `h`'s value coordinate `e` -/
def colV (h : Fin 12) (e : Fin 64) : Fin 2304 := ⟨192 * h.val + 128 + e.val, by have := h.isLt; have := e.isLt; omega⟩

/-- the fused q/k/v projection of one token `x` -/
def qkvrow (W : Fin 2304 → Fin 768 → EReal) (bq : Fin 2304 → EReal) (x : Fin 768 → EReal) (j : Fin 2304) : EReal :=
  rq16 ((∑ d : Fin 768, x d * W j d) + bq j * two)

/-- head `h`'s score of token `s` against token `t`, from the projected tokens `Y` -/
def score (Y : Fin 1024 → Fin 2304 → EReal) (h : Fin 12) (s t : Fin 1024) : EReal :=
  rq16 (∑ e : Fin 64, Y s (colQ h e) * Y t (colK h e))

/-- head `h`'s output for token `s`, coordinate `e` -/
def zhead (Y : Fin 1024 → Fin 2304 → EReal) (h : Fin 12) (s : Fin 1024) (e : Fin 64) : EReal :=
  rq16 (∑ t : Fin 1024, score Y h s t * Y t (colV h e))

/-- the heads side by side: column `c = 64 h + e` -/
def zatt (Y : Fin 1024 → Fin 2304 → EReal) (s : Fin 1024) (c : Fin 768) : EReal :=
  zhead Y ⟨c.val / 64, by have := c.isLt; omega⟩ s ⟨c.val % 64, Nat.mod_lt _ (by norm_num)⟩

/-! ## Output projection, residual and MLP, one token -/

/-- attention output projected, plus the re-quantized input -/
def x1row (Wp : Fin 768 → Fin 768 → EReal) (bp : Fin 768 → EReal) (z x : Fin 768 → EReal) (o : Fin 768) : EReal :=
  rq16 ((∑ d : Fin 768, z d * Wp o d) + bp o * two) + rq16u (x o)

/-- the hidden layer -/
def hidrow (W1 : Fin 3072 → Fin 768 → EReal) (b1 : Fin 3072 → EReal) (x1 : Fin 768 → EReal) (j : Fin 3072) : EReal :=
  rq32 ((∑ d : Fin 768, x1 d * W1 j d) + b1 j * two)

/-- the block's output for one token -/
def outrow (W1 : Fin 3072 → Fin 768 → EReal) (b1 : Fin 3072 → EReal) (W2 : Fin 768 → Fin 3072 → EReal) (b2 : Fin 768 → EReal)
    (x1 : Fin 768 → EReal) (o : Fin 768) : EReal :=
  rq31 ((∑ j : Fin 3072, hidrow W1 b1 x1 j * W2 o j) + b2 o * four) + rq31u (x1 o)

/-! ## The whole block as one function of the nine argument arrays -/

/-- The result array, index by index. -/
def G (X : (⟨3, ![4, 1024, 768]⟩ : Shape).Idx → EReal) (Wqkv : (⟨2, ![2304, 768]⟩ : Shape).Idx → EReal)
    (bqkv : (⟨1, ![2304]⟩ : Shape).Idx → EReal) (Wp : (⟨2, ![768, 768]⟩ : Shape).Idx → EReal)
    (bp : (⟨1, ![768]⟩ : Shape).Idx → EReal) (W1 : (⟨2, ![3072, 768]⟩ : Shape).Idx → EReal)
    (b1 : (⟨1, ![3072]⟩ : Shape).Idx → EReal) (W2 : (⟨2, ![768, 3072]⟩ : Shape).Idx → EReal)
    (b2 : (⟨1, ![768]⟩ : Shape).Idx → EReal) : (⟨3, ![4, 1024, 768]⟩ : Shape).Idx → EReal := fun i =>
  outrow (fun j d => W1 (ix2 j d)) (fun j => b1 (ix1 j)) (fun o j => W2 (ix2 o j)) (fun o => b2 (ix1 o))
    (x1row (fun o d => Wp (ix2 o d)) (fun o => bp (ix1 o))
      (zatt (fun s j => qkvrow (fun j d => Wqkv (ix2 j d)) (fun j => bqkv (ix1 j)) (fun d => X (ix3 (i 0) s d)) j) (i 1))
      (fun d => X (ix3 (i 0) (i 1) d)))
    (i 2)

/-! ## Real values -/

/-- an extended real that is a real -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- between two reals lies a real -/
theorem IsReal.of_between {x : EReal} {a b : ℝ} (ha : (a : EReal) ≤ x) (hb : x ≤ (b : EReal)) : IsReal x := by
  induction x using EReal.rec with
  | bot => exact absurd ha (by simp)
  | coe r => exact ⟨r, rfl⟩
  | top => exact absurd hb (by simp)

end Cert.QBlock

end
-- ==== Proof.LibFiniteInputs.lean ====
/-
  Finite inputs.  A precondition of the form "every entry's absolute value is below +∞", taken over a whole array by an
  all-reduction, makes every entry of the array a real number: an all-reduction that is 1 has every compared entry 1;
  the word `0x7F800000` denotes `⊤`; and an extended real with `max x (-x) < ⊤` is neither infinity.
  Generic in the array's shape and in the axes reduced; the scalar shape is spelt literally so that any program's own
  abbreviation of it unifies.
-/
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

/-- The scalar shape. -/
abbrev S0 : Shape := ⟨0, ![]⟩

instance : Subsingleton S0.Idx := ⟨fun a b => funext fun d => d.elim0⟩

/-- The word of +∞ denotes `⊤`. -/
theorem inf_f32 : Ideal.ofBits .f32 0x7F800000#32 = ⊤ := by simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = ((r : ℝ) : EReal) := by
  rw [inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One array: the all-reduction of `|a| < +∞` is 1, so every entry of `a` is a real. -/
theorem all_real {s : Shape} {axes : List (Fin s.rank)} (a : FVec Ideal s .f32) (hb : S0.BroadcastsInDim s (![] : Fin 0 → Fin s.rank))
    (hr : s.ReducesTo axes S0) (hn : 0 < S0.numel)
    (e : Host.reduce IntOp.andi (cmpf .olt (Host.absf a) (broadcastInDim s ![] hb (constant (F := Ideal) S0 .f32 0x7F800000#32)))
      (constantI S0 1 1#1) hr hn ix0 = 1#1) (i : s.Idx) : ∃ r : ℝ, a i = ((r : ℝ) : EReal) :=
  real_of_lt (a i) (Host.reduce_andi_all _ _ hr hn ix0 e i)

end Cert.FiniteInputs

end
-- ==== Proof.Finite.lean ====
/-
  From the precondition to real entries.  The precondition is the conjunction, over the nine argument
  arrays, of "every entry's absolute value is below +∞"; each conjunct makes every entry of its array a
  real number.
-/
import proofs.«107285_j86406152061476_2_alg».proof.Pre_finite_inputs
import proofs.«107285_j86406152061476_2_alg».proof.Proof.LibFiniteInputs
import proofs.«107285_j86406152061476_2_alg».proof.Proof.Spec
import Idealize.ShloMosaic.Lib.Affine

noncomputable section

namespace Cert.QBlock.Finite

open Cert.Pre_finite_inputs Idealize.ShloMosaic Idealize.ShloMosaic.ValueIdx Cert.QBlock

/-- Under the precondition every entry of every argument array is a real. -/
theorem reals_of_pre [Cert.Pre_finite_inputs.Facts]
    (a0 : FVec Ideal S4x1024x768 .f32) (a1 : FVec Ideal S2304x768 .f32) (a2 : FVec Ideal S2304 .f32)
    (a3 : FVec Ideal S768x768 .f32) (a4 : FVec Ideal S768 .f32) (a5 : FVec Ideal S3072x768 .f32)
    (a6 : FVec Ideal S3072 .f32) (a7 : FVec Ideal S768x3072 .f32) (a8 : FVec Ideal S768 .f32)
    (h : fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have h' := congrFun h ix0
  dsimp only [fn, fn_part1, fn_part2] at h'
  obtain ⟨h', e8⟩ := IntOp.andi_eq_one.mp h'
  obtain ⟨h', e7⟩ := IntOp.andi_eq_one.mp h'
  obtain ⟨h', e6⟩ := IntOp.andi_eq_one.mp h'
  obtain ⟨h', e5⟩ := IntOp.andi_eq_one.mp h'
  obtain ⟨h', e4⟩ := IntOp.andi_eq_one.mp h'
  obtain ⟨h', e3⟩ := IntOp.andi_eq_one.mp h'
  obtain ⟨h', e2⟩ := IntOp.andi_eq_one.mp h'
  obtain ⟨e0, e1⟩ := IntOp.andi_eq_one.mp h'
  exact ⟨fun i => Cert.FiniteInputs.all_real a0 _ _ _ e0 i, fun i => Cert.FiniteInputs.all_real a1 _ _ _ e1 i,
    fun i => Cert.FiniteInputs.all_real a2 _ _ _ e2 i, fun i => Cert.FiniteInputs.all_real a3 _ _ _ e3 i,
    fun i => Cert.FiniteInputs.all_real a4 _ _ _ e4 i, fun i => Cert.FiniteInputs.all_real a5 _ _ _ e5 i,
    fun i => Cert.FiniteInputs.all_real a6 _ _ _ e6 i, fun i => Cert.FiniteInputs.all_real a7 _ _ _ e7 i,
    fun i => Cert.FiniteInputs.all_real a8 _ _ _ e8 i⟩

end Cert.QBlock.Finite

end
-- ==== Proof.Run.lean ====
/-
  The idealized kernel's run with its RESULT named.

  @main is five segments: the host reshapes before the attention call, the attention call (a grid of 4
  points, one batch element each), the host reshapes between the calls, the projection+MLP call (a grid of
  8 points, 512 tokens each), and the final reshape.  The contents of every buffer at each segment boundary
  are a fold through @main from the launch memory; at the end the result buffer holds that fold's value
  there, and the nine argument arrays are as launched.  This module states exactly that: every weakly fair
  execution terminates, and the result array is the fold's last stage read at the result buffer.
-/
import proofs.«107285_j86406152061476_2_alg».proof.Proof.Gen.KernelIdeal.Frame

set_option maxRecDepth 16384

noncomputable section

namespace Cert.QBlock.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents there, and the arguments end as launched. -/
theorem run_value : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.QBlock.Run

end
-- ==== Proof.Region0.lean ====
/-
  The attention call's output array as one function of the arrays the call finds.

  The call runs over a grid of 4 points; point `t` stages batch element `t` of the input ([1,1024,768]),
  the whole fused weight ([2304,768]) and the whole bias row ([1,2304]), and writes back batch element `t`
  of the output.  Given that the body's block is the specification's attention of the staged blocks
  (`hpay`), the blocks the 4 points write back are the restrictions of ONE array `Z`, they cover it, and so
  the array after the call is `Z` of the three input arrays.
-/
import proofs.«107285_j86406152061476_2_alg».proof.Proof.Gen.KernelIdeal.Frame
import Idealize.ShloMosaic.Lib.Pipeline.Value
import Idealize.ShloMosaic.Lib.ValueIdx
import proofs.«107285_j86406152061476_2_alg».proof.Proof.Spec

set_option maxRecDepth 16384

noncomputable section

namespace Cert.QBlock.R0

open Cert.KernelIdeal Cert.KernelIdeal.Gen Idealize.ShloMosaic Idealize.ShloMosaic.TcCoe Idealize.SL.Sem
open Idealize.ShloMosaic.ValueIdx Cert.QBlock
open Idealize.ShloMosaic.Pipeline (Dat)

variable (V : (c : Dev nD) → (b : Ref sig .tc) → Buf (Elt Ideal) ((c : Thread nD τ).loc b))

/-- The attention output [4,1024,768]: entry (b, s, c) is the specification's attention of batch element
    `b`'s projected tokens, at token `s`, column `c`. -/
def Z (X : S4x1024x768.Idx → EReal) (W : S2304x768.Idx → EReal) (bq : S1x2304.Idx → EReal) : S4x1024x768.Idx → EReal := fun i =>
  zatt (fun s j => qkvrow (fun j d => W (ix2 j d)) (fun j => bq (ix2 (0 : Fin 1) j)) (fun d => X (ix3 (i 0) s d)) j) (i 1) (i 2)

/-- The body's block at an index is the specification's attention of the three staged blocks. -/
def PayloadIsSpec : Prop :=
  ∀ (x0 : Vec Ideal S1x1024x768 .f32) (x1 : Vec Ideal S2304x768 .f32) (x2 : Vec Ideal S1x2304 .f32) (s : Fin 1024) (c : Fin 768),
    out0_3 (F := Ideal) x0 x1 x2 (ix3 (0 : Fin 1) s c)
      = zatt (fun s' j => qkvrow (fun j d => x1 (ix2 j d)) (fun j => x2 (ix2 (0 : Fin 1) j)) (fun d => x0 (ix3 (0 : Fin 1) s' d)) j) s c

/-- The printed index maps over the 4 points: the input and the output move with the point along the
    batch axis; the weight and the bias stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The input's block at point `t` is batch element `t` of the input array. -/
theorem read_x (c : Dev nD) (t : Fin cfg0.N) (y : S1x1024x768.Idx) (i : S4x1024x768.Idx)
    (h0 : (i 0).val = t.val) (h1 : (i 1).val = (y 1).val) (h2 : (i 2).val = (y 2).val) :
    iblk0 V c 0 t y = V c main_arg0 i := by
  show V c main_arg0 (((cfg0.win 0).blk t).view.emb y) = V c main_arg0 i
  have h : ((cfg0.win 0).blk t).view.emb y = i := by
    obtain ⟨e0, e1, e2, -⟩ := idx_facts t
    funext a; apply Fin.ext
    match a with
    | ⟨0, _⟩ => show win0_0.index t (0 : Fin 3) * 1 + 1 * (y 0).val = (i 0).val; have hy : (y 0).val < 1 := (y 0).isLt; omega
    | ⟨1, _⟩ => show win0_0.index t (1 : Fin 3) * 1024 + 1 * (y 1).val = (i 1).val; omega
    | ⟨2, _⟩ => show win0_0.index t (2 : Fin 3) * 768 + 1 * (y 2).val = (i 2).val; omega
  rw [h]

/-- The weight's block at any point is the whole weight array. -/
theorem read_w (c : Dev nD) (t : Fin cfg0.N) (y : S2304x768.Idx) : iblk0 V c 1 t y = V c main_arg1 y := by
  show V c main_arg1 (((cfg0.win 1).blk t).view.emb y) = V c main_arg1 y
  have h : ((cfg0.win 1).blk t).view.emb y = y := by
    obtain ⟨-, -, -, e0, e1, -⟩ := idx_facts t
    funext a; apply Fin.ext
    match a with
    | ⟨0, _⟩ => show win0_1.index t (0 : Fin 2) * 2304 + 1 * (y 0).val = (y 0).val; omega
    | ⟨1, _⟩ => show win0_1.index t (1 : Fin 2) * 768 + 1 * (y 1).val = (y 1).val; omega
  rw [h]

/-- The bias row's block at any point is the whole bias row. -/
theorem read_b (c : Dev nD) (t : Fin cfg0.N) (y : S1x2304.Idx) : iblk0 V c 2 t y = V c main_v0 y := by
  show V c main_v0 (((cfg0.win 2).blk t).view.emb y) = V c main_v0 y
  have h : ((cfg0.win 2).blk t).view.emb y = y := by
    obtain ⟨-, -, -, -, -, e0, e1, -⟩ := idx_facts t
    funext a; apply Fin.ext
    match a with
    | ⟨0, _⟩ => show win0_2.index t (0 : Fin 2) * 1 + 1 * (y 0).val = (y 0).val; omega
    | ⟨1, _⟩ => show win0_2.index t (1 : Fin 2) * 2304 + 1 * (y 1).val = (y 1).val; omega
  rw [h]

/-- Where the output's block at point `t` sits in the output array. -/
theorem emb_out (t : Fin cfg0.N) (s : Fin 1024) (c' : Fin 768) (b : Fin 4) (hb : b.val = t.val) :
    ((cfg0.win 3).blk t).view.emb (ix3 (0 : Fin 1) s c') = (ix3 b s c' : S4x1024x768.Idx) := by
  obtain ⟨-, -, -, -, -, -, -, e0, e1, e2⟩ := idx_facts t
  funext a; apply Fin.ext
  match a with
  | ⟨0, _⟩ => show win0_3.index t (0 : Fin 3) * 1 + 1 * 0 = b.val; omega
  | ⟨1, _⟩ => show win0_3.index t (1 : Fin 3) * 1024 + 1 * s.val = s.val; omega
  | ⟨2, _⟩ => show win0_3.index t (2 : Fin 3) * 768 + 1 * c'.val = c'.val; omega

/-- What point `t` writes back is block `t` of `Z` of the arrays as the call finds them. -/
theorem flushed_eq (hpay : PayloadIsSpec) (c : Dev nD) (t : Fin cfg0.N) :
    (dat0 V c).flushed 3 t = ((cfg0.win 3).blk t).view.read (Elt Ideal) (Z (V c main_arg0) (V c main_arg1) (V c main_v0)) := by
  show (cfg0.win 3).cut (grid0.coords t) ((dat0 V c).after 3 t) = _
  rw [after0_3]
  refine funext fun (j : S1x1024x768.Idx) => ?_
  obtain ⟨u, s, c', rfl⟩ : ∃ (u : Fin 1) (s : Fin 1024) (c' : Fin 768), j = ix3 u s c' := ⟨j 0, j 1, j 2, eq_ix3 j⟩
  obtain rfl : u = 0 := Subsingleton.elim _ _
  have ht : t.val < 4 := Nat.lt_of_lt_of_eq t.isLt N_0
  show out0_3 (iblk0 V c 0 t) (iblk0 V c 1 t) (iblk0 V c 2 t) (ix3 (0 : Fin 1) s c')
    = Z (V c main_arg0) (V c main_arg1) (V c main_v0) (((cfg0.win 3).blk t).view.emb (ix3 (0 : Fin 1) s c'))
  rw [emb_out t s c' ⟨t.val, ht⟩ rfl]
  refine (hpay _ _ _ s c').trans ?_
  have r0 : ∀ (s' : Fin 1024) (d : Fin 768), iblk0 V c 0 t (ix3 (0 : Fin 1) s' d) = V c main_arg0 (ix3 (⟨t.val, ht⟩ : Fin 4) s' d) :=
    fun s' d => read_x V c t _ _ rfl rfl rfl
  have r1 : ∀ (j : Fin 2304) (d : Fin 768), iblk0 V c 1 t (ix2 j d) = V c main_arg1 (ix2 j d) := fun j d => read_w V c t _
  have r2 : ∀ (j : Fin 2304), iblk0 V c 2 t (ix2 (0 : Fin 1) j) = V c main_v0 (ix2 (0 : Fin 1) j) := fun j => read_b V c t _
  simp only [r0, r1, r2]
  rfl

/-- An index of the output array is in point `t`'s block iff each coordinate is in the block's range. -/
theorem mem_blk (t : Fin cfg0.N) (i : S4x1024x768.Idx) :
    i ∈ ((cfg0.win 3).blk t).view.set ↔ ∀ a : Fin 3, win0_3.index t a * S1x1024x768.size a ≤ (i a).val ∧ (i a).val < win0_3.index t a * S1x1024x768.size a + S1x1024x768.size a := by
  show i ∈ ((View.whole main_v1).slice (win0_3.rect t)).set ↔ _
  rw [View.set_slice_whole, Rect.mem_set_unit]
  exact Iff.rfl

/-- Every index of the output array is in the block of the point named by its batch coordinate. -/
theorem cover (i : S4x1024x768.Idx) : ∃ t : Fin cfg0.N, (cfg0.win 3).flush t = true ∧ i ∈ ((cfg0.win 3).blk t).view.set := by
  have hi0 : (i 0).val < 4 := (i 0).isLt
  have hi1 : (i 1).val < 1024 := (i 1).isLt
  have hi2 : (i 2).val < 768 := (i 2).isLt
  have hlt : (i 0).val < cfg0.N := Nat.lt_of_lt_of_eq hi0 N_0.symm
  refine ⟨⟨(i 0).val, hlt⟩, flush0_3 _, ?_⟩
  rw [mem_blk]
  obtain ⟨-, -, -, -, -, -, -, e0, e1, e2⟩ := idx_facts ⟨(i 0).val, hlt⟩
  have e0' : win0_3.index ⟨(i 0).val, hlt⟩ (0 : Fin 3) = (i 0).val := e0
  intro a
  match a with
  | ⟨0, _⟩ => exact (show win0_3.index _ (0 : Fin 3) * 1 ≤ (i 0).val ∧ (i 0).val < win0_3.index _ (0 : Fin 3) * 1 + 1 by rw [e0']; constructor <;> omega)
  | ⟨1, _⟩ => exact (show win0_3.index _ (1 : Fin 3) * 1024 ≤ (i 1).val ∧ (i 1).val < win0_3.index _ (1 : Fin 3) * 1024 + 1024 by rw [e1]; constructor <;> omega)
  | ⟨2, _⟩ => exact (show win0_3.index _ (2 : Fin 3) * 768 ≤ (i 2).val ∧ (i 2).val < win0_3.index _ (2 : Fin 3) * 768 + 768 by rw [e2]; constructor <;> omega)

/-- THE ARRAY after the attention call: `Z` of the three arrays the call finds. -/
theorem final (hpay : PayloadIsSpec) (c : Dev nD) :
    (dat0 V c).arrAt 3 cfg0.N = Z (V c main_arg0) (V c main_arg1) (V c main_v0) :=
  (dat0 V c).arrAt_eq_of_cover 3 _ (fun t _ => flushed_eq V hpay c t) cover

end Cert.QBlock.R0

end
-- ==== Proof.Region1.lean ====
/-
  The projection+MLP call's output array as one function of the arrays the call finds.

  The call runs over a grid of 8 points; point `t` stages rows 512 t … 512 t + 511 of the flattened
  attention output and of the flattened input ([512,768] each), the six whole weight and bias arrays, and
  writes back the same rows of the output.  Each output row depends only on the same row of the two
  row-blocked inputs, so, given that the body's block is the specification's token function of the staged
  blocks (`hpay`), the blocks the 8 points write back are the restrictions of ONE array `O`, they cover it,
  and the array after the call is `O` of the eight input arrays.
-/
import proofs.«107285_j86406152061476_2_alg».proof.Proof.Gen.KernelIdeal.Frame
import Idealize.ShloMosaic.Lib.Pipeline.Value
import Idealize.ShloMosaic.Lib.ValueIdx
import proofs.«107285_j86406152061476_2_alg».proof.Proof.Spec

set_option maxRecDepth 16384

noncomputable section

namespace Cert.QBlock.R1

open Cert.KernelIdeal Cert.KernelIdeal.Gen Idealize.ShloMosaic Idealize.ShloMosaic.TcCoe Idealize.SL.Sem
open Idealize.ShloMosaic.ValueIdx Cert.QBlock
open Idealize.ShloMosaic.Pipeline (Dat)

variable (V : (c : Dev nD) → (b : Ref sig .tc) → Buf (Elt Ideal) ((c : Thread nD τ).loc b))

/-- The block's output [4096,768]: row `n` is the specification's token function of row `n` of the
    attention output and of the input. -/
def O (Zf Xf : S4096x768.Idx → EReal) (Wp : S768x768.Idx → EReal) (bp : S1x768.Idx → EReal) (W1 : S3072x768.Idx → EReal)
    (b1 : S1x3072.Idx → EReal) (W2 : S768x3072.Idx → EReal) (b2 : S1x768.Idx → EReal) : S4096x768.Idx → EReal := fun i =>
  outrow (fun j d => W1 (ix2 j d)) (fun j => b1 (ix2 (0 : Fin 1) j)) (fun o j => W2 (ix2 o j)) (fun o => b2 (ix2 (0 : Fin 1) o))
    (x1row (fun o d => Wp (ix2 o d)) (fun o => bp (ix2 (0 : Fin 1) o)) (fun d => Zf (ix2 (i 0) d)) (fun d => Xf (ix2 (i 0) d))) (i 1)

/-- The body's block at an index is the specification's token function of the staged blocks. -/
def PayloadIsSpec : Prop :=
  ∀ (z : Vec Ideal S512x768 .f32) (x : Vec Ideal S512x768 .f32) (wp : Vec Ideal S768x768 .f32) (bp : Vec Ideal S1x768 .f32)
    (w1 : Vec Ideal S3072x768 .f32) (b1 : Vec Ideal S1x3072 .f32) (w2 : Vec Ideal S768x3072 .f32) (b2 : Vec Ideal S1x768 .f32)
    (r : Fin 512) (o : Fin 768),
    out1_8 (F := Ideal) z x wp bp w1 b1 w2 b2 (ix2 r o)
      = outrow (fun j d => w1 (ix2 j d)) (fun j => b1 (ix2 (0 : Fin 1) j)) (fun o' j => w2 (ix2 o' j)) (fun o' => b2 (ix2 (0 : Fin 1) o'))
          (x1row (fun o' d => wp (ix2 o' d)) (fun o' => bp (ix2 (0 : Fin 1) o')) (fun d => z (ix2 r d)) (fun d => x (ix2 r d))) o

/-- The printed index maps over the 8 points: the two row-blocked inputs and the output move with the
    point along the row axis; the weights and biases stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The attention rows' block at point `t` is rows 512 t … of the flattened attention output. -/
theorem read_z (c : Dev nD) (t : Fin cfg1.N) (y : S512x768.Idx) (i : S4096x768.Idx)
    (h0 : (i 0).val = 512 * t.val + (y 0).val) (h1 : (i 1).val = (y 1).val) :
    iblk1 V c 0 t y = V c main_v2 i := by
  show V c main_v2 (((cfg1.win 0).blk t).view.emb y) = V c main_v2 i
  have h : ((cfg1.win 0).blk t).view.emb y = i := by
    obtain ⟨e0, e1, -⟩ := idx_facts t
    funext a; apply Fin.ext
    match a with
    | ⟨0, _⟩ => show win1_0.index t (0 : Fin 2) * 512 + 1 * (y 0).val = (i 0).val; omega
    | ⟨1, _⟩ => show win1_0.index t (1 : Fin 2) * 768 + 1 * (y 1).val = (i 1).val; omega
  rw [h]

/-- The input rows' block at point `t` is rows 512 t … of the flattened input. -/
theorem read_x (c : Dev nD) (t : Fin cfg1.N) (y : S512x768.Idx) (i : S4096x768.Idx)
    (h0 : (i 0).val = 512 * t.val + (y 0).val) (h1 : (i 1).val = (y 1).val) :
    iblk1 V c 1 t y = V c main_v3 i := by
  show V c main_v3 (((cfg1.win 1).blk t).view.emb y) = V c main_v3 i
  have h : ((cfg1.win 1).blk t).view.emb y = i := by
    obtain ⟨-, -, e0, e1, -⟩ := idx_facts t
    funext a; apply Fin.ext
    match a with
    | ⟨0, _⟩ => show win1_1.index t (0 : Fin 2) * 512 + 1 * (y 0).val = (i 0).val; omega
    | ⟨1, _⟩ => show win1_1.index t (1 : Fin 2) * 768 + 1 * (y 1).val = (i 1).val; omega
  rw [h]

/-- Each weight's and bias row's block at any point is the whole array. -/
theorem read_wp (c : Dev nD) (t : Fin cfg1.N) (y : S768x768.Idx) : iblk1 V c 2 t y = V c main_arg3 y := by
  show V c main_arg3 (((cfg1.win 2).blk t).view.emb y) = V c main_arg3 y
  have h : ((cfg1.win 2).blk t).view.emb y = y := by
    obtain ⟨-, -, -, -, e0, e1, -⟩ := idx_facts t
    funext a; apply Fin.ext
    match a with
    | ⟨0, _⟩ => show win1_2.index t (0 : Fin 2) * 768 + 1 * (y 0).val = (y 0).val; omega
    | ⟨1, _⟩ => show win1_2.index t (1 : Fin 2) * 768 + 1 * (y 1).val = (y 1).val; omega
  rw [h]

theorem read_bp (c : Dev nD) (t : Fin cfg1.N) (y : S1x768.Idx) : iblk1 V c 3 t y = V c main_v4 y := by
  show V c main_v4 (((cfg1.win 3).blk t).view.emb y) = V c main_v4 y
  have h : ((cfg1.win 3).blk t).view.emb y = y := by
    obtain ⟨-, -, -, -, -, -, e0, e1, -⟩ := idx_facts t
    funext a; apply Fin.ext
    match a with
    | ⟨0, _⟩ => show win1_3.index t (0 : Fin 2) * 1 + 1 * (y 0).val = (y 0).val; omega
    | ⟨1, _⟩ => show win1_3.index t (1 : Fin 2) * 768 + 1 * (y 1).val = (y 1).val; omega
  rw [h]

theorem read_w1 (c : Dev nD) (t : Fin cfg1.N) (y : S3072x768.Idx) : iblk1 V c 4 t y = V c main_arg5 y := by
  show V c main_arg5 (((cfg1.win 4).blk t).view.emb y) = V c main_arg5 y
  have h : ((cfg1.win 4).blk t).view.emb y = y := by
    obtain ⟨-, -, -, -, -, -, -, -, e0, e1, -⟩ := idx_facts t
    funext a; apply Fin.ext
    match a with
    | ⟨0, _⟩ => show win1_4.index t (0 : Fin 2) * 3072 + 1 * (y 0).val = (y 0).val; omega
    | ⟨1, _⟩ => show win1_4.index t (1 : Fin 2) * 768 + 1 * (y 1).val = (y 1).val; omega
  rw [h]

theorem read_b1 (c : Dev nD) (t : Fin cfg1.N) (y : S1x3072.Idx) : iblk1 V c 5 t y = V c main_v5 y := by
  show V c main_v5 (((cfg1.win 5).blk t).view.emb y) = V c main_v5 y
  have h : ((cfg1.win 5).blk t).view.emb y = y := by
    obtain ⟨-, -, -, -, -, -, -, -, -, -, e0, e1, -⟩ := idx_facts t
    funext a; apply Fin.ext
    match a with
    | ⟨0, _⟩ => show win1_5.index t (0 : Fin 2) * 1 + 1 * (y 0).val = (y 0).val; omega
    | ⟨1, _⟩ => show win1_5.index t (1 : Fin 2) * 3072 + 1 * (y 1).val = (y 1).val; omega
  rw [h]

theorem read_w2 (c : Dev nD) (t : Fin cfg1.N) (y : S768x3072.Idx) : iblk1 V c 6 t y = V c main_arg7 y := by
  show V c main_arg7 (((cfg1.win 6).blk t).view.emb y) = V c main_arg7 y
  have h : ((cfg1.win 6).blk t).view.emb y = y := by
    obtain ⟨-, -, -, -, -, -, -, -, -, -, -, -, e0, e1, -⟩ := idx_facts t
    funext a; apply Fin.ext
    match a with
    | ⟨0, _⟩ => show win1_6.index t (0 : Fin 2) * 768 + 1 * (y 0).val = (y 0).val; omega
    | ⟨1, _⟩ => show win1_6.index t (1 : Fin 2) * 3072 + 1 * (y 1).val = (y 1).val; omega
  rw [h]

theorem read_b2 (c : Dev nD) (t : Fin cfg1.N) (y : S1x768.Idx) : iblk1 V c 7 t y = V c main_v6 y := by
  show V c main_v6 (((cfg1.win 7).blk t).view.emb y) = V c main_v6 y
  have h : ((cfg1.win 7).blk t).view.emb y = y := by
    obtain ⟨-, -, -, -, -, -, -, -, -, -, -, -, -, -, e0, e1, -⟩ := idx_facts t
    funext a; apply Fin.ext
    match a with
    | ⟨0, _⟩ => show win1_7.index t (0 : Fin 2) * 1 + 1 * (y 0).val = (y 0).val; omega
    | ⟨1, _⟩ => show win1_7.index t (1 : Fin 2) * 768 + 1 * (y 1).val = (y 1).val; omega
  rw [h]

/-- Where the output's block at point `t` sits in the output array. -/
theorem emb_out (t : Fin cfg1.N) (r : Fin 512) (o : Fin 768) (n : Fin 4096) (hn : n.val = 512 * t.val + r.val) :
    ((cfg1.win 8).blk t).view.emb (ix2 r o) = (ix2 n o : S4096x768.Idx) := by
  obtain ⟨-, -, -, -, -, -, -, -, -, -, -, -, -, -, -, -, e0, e1⟩ := idx_facts t
  funext a; apply Fin.ext
  match a with
  | ⟨0, _⟩ => show win1_8.index t (0 : Fin 2) * 512 + 1 * r.val = n.val; omega
  | ⟨1, _⟩ => show win1_8.index t (1 : Fin 2) * 768 + 1 * o.val = o.val; omega

/-- What point `t` writes back is block `t` of `O` of the arrays as the call finds them. -/
theorem flushed_eq (hpay : PayloadIsSpec) (c : Dev nD) (t : Fin cfg1.N) :
    (dat1 V c).flushed 8 t = ((cfg1.win 8).blk t).view.read (Elt Ideal)
      (O (V c main_v2) (V c main_v3) (V c main_arg3) (V c main_v4) (V c main_arg5) (V c main_v5) (V c main_arg7) (V c main_v6)) := by
  show (cfg1.win 8).cut (grid1.coords t) ((dat1 V c).after 8 t) = _
  rw [after1_8]
  refine funext fun (j : S512x768.Idx) => ?_
  obtain ⟨r, o, rfl⟩ : ∃ (r : Fin 512) (o : Fin 768), j = ix2 r o := ⟨j 0, j 1, eq_ix2 j⟩
  have ht : t.val < 8 := Nat.lt_of_lt_of_eq t.isLt N_1
  have hn : 512 * t.val + r.val < 4096 := by have := r.isLt; omega
  show out1_8 (iblk1 V c 0 t) (iblk1 V c 1 t) (iblk1 V c 2 t) (iblk1 V c 3 t) (iblk1 V c 4 t) (iblk1 V c 5 t) (iblk1 V c 6 t) (iblk1 V c 7 t) (ix2 r o)
    = O (V c main_v2) (V c main_v3) (V c main_arg3) (V c main_v4) (V c main_arg5) (V c main_v5) (V c main_arg7) (V c main_v6)
        (((cfg1.win 8).blk t).view.emb (ix2 r o))
  rw [emb_out t r o ⟨512 * t.val + r.val, hn⟩ rfl]
  refine (hpay _ _ _ _ _ _ _ _ r o).trans ?_
  have r0 : ∀ (d : Fin 768), iblk1 V c 0 t (ix2 r d) = V c main_v2 (ix2 (⟨512 * t.val + r.val, hn⟩ : Fin 4096) d) :=
    fun d => read_z V c t _ _ rfl rfl
  have r1 : ∀ (d : Fin 768), iblk1 V c 1 t (ix2 r d) = V c main_v3 (ix2 (⟨512 * t.val + r.val, hn⟩ : Fin 4096) d) :=
    fun d => read_x V c t _ _ rfl rfl
  have r2 : ∀ (o' : Fin 768) (d : Fin 768), iblk1 V c 2 t (ix2 o' d) = V c main_arg3 (ix2 o' d) := fun o' d => read_wp V c t _
  have r3 : ∀ (o' : Fin 768), iblk1 V c 3 t (ix2 (0 : Fin 1) o') = V c main_v4 (ix2 (0 : Fin 1) o') := fun o' => read_bp V c t _
  have r4 : ∀ (j : Fin 3072) (d : Fin 768), iblk1 V c 4 t (ix2 j d) = V c main_arg5 (ix2 j d) := fun j d => read_w1 V c t _
  have r5 : ∀ (j : Fin 3072), iblk1 V c 5 t (ix2 (0 : Fin 1) j) = V c main_v5 (ix2 (0 : Fin 1) j) := fun j => read_b1 V c t _
  have r6 : ∀ (o' : Fin 768) (j : Fin 3072), iblk1 V c 6 t (ix2 o' j) = V c main_arg7 (ix2 o' j) := fun o' j => read_w2 V c t _
  have r7 : ∀ (o' : Fin 768), iblk1 V c 7 t (ix2 (0 : Fin 1) o') = V c main_v6 (ix2 (0 : Fin 1) o') := fun o' => read_b2 V c t _
  simp only [r0, r1, r2, r3, r4, r5, r6, r7]
  rfl

/-- An index of the output array is in point `t`'s block iff each coordinate is in the block's range. -/
theorem mem_blk (t : Fin cfg1.N) (i : S4096x768.Idx) :
    i ∈ ((cfg1.win 8).blk t).view.set ↔ ∀ a : Fin 2, win1_8.index t a * S512x768.size a ≤ (i a).val ∧ (i a).val < win1_8.index t a * S512x768.size a + S512x768.size a := by
  show i ∈ ((View.whole main_v7).slice (win1_8.rect t)).set ↔ _
  rw [View.set_slice_whole, Rect.mem_set_unit]
  exact Iff.rfl

/-- Every row of the output array is in the block of the point named by the row's quotient by 512. -/
theorem cover (i : S4096x768.Idx) : ∃ t : Fin cfg1.N, (cfg1.win 8).flush t = true ∧ i ∈ ((cfg1.win 8).blk t).view.set := by
  have hi0 : (i 0).val < 4096 := (i 0).isLt
  have hi1 : (i 1).val < 768 := (i 1).isLt
  have hq : (i 0).val / 512 < cfg1.N := Nat.lt_of_lt_of_eq (by omega : (i 0).val / 512 < 8) N_1.symm
  refine ⟨⟨(i 0).val / 512, hq⟩, flush1_8 _, ?_⟩
  rw [mem_blk]
  obtain ⟨-, -, -, -, -, -, -, -, -, -, -, -, -, -, -, -, e0, e1⟩ := idx_facts ⟨(i 0).val / 512, hq⟩
  have e0' : win1_8.index ⟨(i 0).val / 512, hq⟩ (0 : Fin 2) = (i 0).val / 512 := e0
  intro a
  match a with
  | ⟨0, _⟩ => exact (show win1_8.index _ (0 : Fin 2) * 512 ≤ (i 0).val ∧ (i 0).val < win1_8.index _ (0 : Fin 2) * 512 + 512 by rw [e0']; constructor <;> omega)
  | ⟨1, _⟩ => exact (show win1_8.index _ (1 : Fin 2) * 768 ≤ (i 1).val ∧ (i 1).val < win1_8.index _ (1 : Fin 2) * 768 + 768 by rw [e1]; constructor <;> omega)

/-- THE ARRAY after the projection+MLP call: `O` of the eight arrays the call finds. -/
theorem final (hpay : PayloadIsSpec) (c : Dev nD) :
    (dat1 V c).arrAt 8 cfg1.N = O (V c main_v2) (V c main_v3) (V c main_arg3) (V c main_v4) (V c main_arg5) (V c main_v5) (V c main_arg7) (V c main_v6) :=
  (dat1 V c).arrAt_eq_of_cover 8 _ (fun t _ => flushed_eq V hpay c t) cover

end Cert.QBlock.R1

end
-- ==== Proof.KernelValue.lean ====
/-
  The kernel's result as the specification's function of the launch memory.

  Between the launch and the return the buffers change only as follows: the bias row is reshaped
  [2304] → [1,2304]; the attention call writes its output array; that array and the input are flattened
  [4,1024,768] → [4096,768] and the three remaining bias rows reshaped [n] → [1,n]; the projection+MLP call
  writes its output array; that is reshaped [4096,768] → [4,1024,768] into the result.  A reshape keeps the
  row-major position, so token (b, s) is row 1024 b + s of a flattened array and entry j of a bias is
  entry (0, j) of its row.  Reading the last boundary's contents at the result buffer back through these
  steps, with each call's output array the one function of its inputs found for it, gives the
  specification's block function of the nine argument arrays.
-/
import proofs.«107285_j86406152061476_2_alg».proof.Proof.Gen.KernelIdeal.Frame
import Idealize.ShloMosaic.Lib.StableHlo.Run
import Idealize.ShloMosaic.Lib.Pipeline.Value
import Idealize.ShloMosaic.Lib.ValueIdx
import proofs.«107285_j86406152061476_2_alg».proof.Proof.Spec
import proofs.«107285_j86406152061476_2_alg».proof.Proof.Region0
import proofs.«107285_j86406152061476_2_alg».proof.Proof.Region1

set_option maxRecDepth 16384

noncomputable section

namespace Cert.QBlock.KV

open Cert.KernelIdeal Cert.KernelIdeal.Gen Idealize.ShloMosaic Idealize.ShloMosaic.TcCoe Idealize.SL.Sem
open Idealize.ShloMosaic.StableHlo Idealize.ShloMosaic.ValueIdx Cert.QBlock
open Idealize.ShloMosaic.Pipeline (Dat)

variable (m : (ℓ : Loc nD τ sig) → Buf (Elt Ideal) ℓ) (ρ : Dev nD → PrngReg)

/-! ## Reshapes read at coordinates -/

/-- Row 1024 b + s of a flattened array is token (b, s). -/
theorem flat_apply (Y : S4x1024x768.Idx → EReal) (b : Fin 4) (s : Fin 1024) (d : Fin 768) (hn : 1024 * b.val + s.val < 4096) :
    shapeCast S4096x768 Y shapeCasts_S4x1024x768_S4096x768 (ix2 (⟨1024 * b.val + s.val, hn⟩ : Fin 4096) d) = Y (ix3 b s d) :=
  shapeCast_apply Y shapeCasts_S4x1024x768_S4096x768 _ (ix3 b s d)
    (by rw [Shape.rowMajor_val_two, Shape.rowMajor_val_three]
        show (b.val * 1024 + s.val) * 768 + d.val = (1024 * b.val + s.val) * 768 + d.val
        omega)

/-- Token (b, s) of the un-flattened array is row 1024 b + s. -/
theorem unflat_apply (Y : S4096x768.Idx → EReal) (b : Fin 4) (s : Fin 1024) (o : Fin 768) (hn : 1024 * b.val + s.val < 4096) :
    shapeCast S4x1024x768 Y shapeCasts_S4096x768_S4x1024x768 (ix3 b s o) = Y (ix2 (⟨1024 * b.val + s.val, hn⟩ : Fin 4096) o) :=
  shapeCast_apply Y shapeCasts_S4096x768_S4x1024x768 _ (ix2 (⟨1024 * b.val + s.val, hn⟩ : Fin 4096) o)
    (by rw [Shape.rowMajor_val_two, Shape.rowMajor_val_three]
        show (1024 * b.val + s.val) * 768 + o.val = (b.val * 1024 + s.val) * 768 + o.val
        omega)

/-- Entry (0, j) of a bias row is entry j of the bias. -/
theorem row2304_apply (y : S2304.Idx → EReal) (j : Fin 2304) :
    shapeCast S1x2304 y shapeCasts_S2304_S1x2304 (ix2 (0 : Fin 1) j) = y (ix1 j) :=
  shapeCast_apply y shapeCasts_S2304_S1x2304 _ (ix1 j)
    (by rw [Shape.rowMajor_val_one, Shape.rowMajor_val_two]; show j.val = 0 * 2304 + j.val; omega)

theorem row768_apply (y : S768.Idx → EReal) (j : Fin 768) :
    shapeCast S1x768 y shapeCasts_S768_S1x768 (ix2 (0 : Fin 1) j) = y (ix1 j) :=
  shapeCast_apply y shapeCasts_S768_S1x768 _ (ix1 j)
    (by rw [Shape.rowMajor_val_one, Shape.rowMajor_val_two]; show j.val = 0 * 768 + j.val; omega)

theorem row3072_apply (y : S3072.Idx → EReal) (j : Fin 3072) :
    shapeCast S1x3072 y shapeCasts_S3072_S1x3072 (ix2 (0 : Fin 1) j) = y (ix1 j) :=
  shapeCast_apply y shapeCasts_S3072_S1x3072 _ (ix1 j)
    (by rw [Shape.rowMajor_val_one, Shape.rowMajor_val_two]; show j.val = 0 * 3072 + j.val; omega)

/-! ## The buffers at the attention call's entry -/

theorem V1_x (c : Dev nD) : V1 m ρ c main_arg0 = m ((c : Thread nD τ).loc main_arg0) := by
  show StableHlo.after hostOps0 (W0 m ρ c) (Proc.devRef .tc main_arg0) = _
  after_results <;> rfl

theorem V1_w (c : Dev nD) : V1 m ρ c main_arg1 = m ((c : Thread nD τ).loc main_arg1) := by
  show StableHlo.after hostOps0 (W0 m ρ c) (Proc.devRef .tc main_arg1) = _
  after_results <;> rfl

theorem V1_b (c : Dev nD) :
    V1 m ρ c main_v0 = shapeCast S1x2304 (m ((c : Thread nD τ).loc main_arg2)) shapeCasts_S2304_S1x2304 := by
  show StableHlo.after hostOps0 (W0 m ρ c) (Proc.devRef .tc main_v0) = _
  after_results <;> rfl

/-- A buffer the first stretch does not write holds its launch contents at the attention call's entry. -/
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl

/-! ## The buffers at the attention call's exit -/

/-- The attention call's output array. -/
theorem W2_z (h0 : R0.PayloadIsSpec) (c : Dev nD) :
    W2 m ρ c (Proc.devRef .tc main_v1)
      = R0.Z (m ((c : Thread nD τ).loc main_arg0)) (m ((c : Thread nD τ).loc main_arg1))
          (shapeCast S1x2304 (m ((c : Thread nD τ).loc main_arg2)) shapeCasts_S2304_S1x2304) := by
  have h := R0.final (V1 m ρ) h0 c
  rw [V1_x, V1_w, V1_b] at h
  exact (W2_arr m ρ c 3).trans h

/-- The input array is staged and never written back. -/
theorem W2_x (c : Dev nD) : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (V1_x m ρ c)))

theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

/-! ## The buffers at the projection+MLP call's entry -/

theorem V3_z (h0 : R0.PayloadIsSpec) (c : Dev nD) :
    V3 m ρ c main_v2 = shapeCast S4096x768 (R0.Z (m ((c : Thread nD τ).loc main_arg0)) (m ((c : Thread nD τ).loc main_arg1))
          (shapeCast S1x2304 (m ((c : Thread nD τ).loc main_arg2)) shapeCasts_S2304_S1x2304)) shapeCasts_S4x1024x768_S4096x768 := by
  rw [← W2_z m ρ h0 c]
  show StableHlo.after hostOps1 (W2 m ρ c) (Proc.devRef .tc main_v2) = _
  after_results <;> rfl

theorem V3_x (c : Dev nD) :
    V3 m ρ c main_v3 = shapeCast S4096x768 (m ((c : Thread nD τ).loc main_arg0)) shapeCasts_S4x1024x768_S4096x768 := by
  rw [← W2_x m ρ c]
  show StableHlo.after hostOps1 (W2 m ρ c) (Proc.devRef .tc main_v3) = _
  after_results <;> rfl

theorem V3_wp (c : Dev nD) : V3 m ρ c main_arg3 = m ((c : Thread nD τ).loc main_arg3) := by
  rw [← W2_arg3 m ρ c]
  show StableHlo.after hostOps1 (W2 m ρ c) (Proc.devRef .tc main_arg3) = _
  after_results <;> rfl

theorem V3_bp (c : Dev nD) : V3 m ρ c main_v4 = shapeCast S1x768 (m ((c : Thread nD τ).loc main_arg4)) shapeCasts_S768_S1x768 := by
  rw [← W2_arg4 m ρ c]
  show StableHlo.after hostOps1 (W2 m ρ c) (Proc.devRef .tc main_v4) = _
  after_results <;> rfl

theorem V3_w1 (c : Dev nD) : V3 m ρ c main_arg5 = m ((c : Thread nD τ).loc main_arg5) := by
  rw [← W2_arg5 m ρ c]
  show StableHlo.after hostOps1 (W2 m ρ c) (Proc.devRef .tc main_arg5) = _
  after_results <;> rfl

theorem V3_b1 (c : Dev nD) : V3 m ρ c main_v5 = shapeCast S1x3072 (m ((c : Thread nD τ).loc main_arg6)) shapeCasts_S3072_S1x3072 := by
  rw [← W2_arg6 m ρ c]
  show StableHlo.after hostOps1 (W2 m ρ c) (Proc.devRef .tc main_v5) = _
  after_results <;> rfl

theorem V3_w2 (c : Dev nD) : V3 m ρ c main_arg7 = m ((c : Thread nD τ).loc main_arg7) := by
  rw [← W2_arg7 m ρ c]
  show StableHlo.after hostOps1 (W2 m ρ c) (Proc.devRef .tc main_arg7) = _
  after_results <;> rfl

theorem V3_b2 (c : Dev nD) : V3 m ρ c main_v6 = shapeCast S1x768 (m ((c : Thread nD τ).loc main_arg8)) shapeCasts_S768_S1x768 := by
  rw [← W2_arg8 m ρ c]
  show StableHlo.after hostOps1 (W2 m ρ c) (Proc.devRef .tc main_v6) = _
  after_results <;> rfl

/-! ## The result -/

/-- The result buffer at the return: the projection+MLP call's output array, un-flattened. -/
theorem W5_out (c : Dev nD) :
    W5 m ρ c (Proc.devRef .tc main_v8) = shapeCast S4x1024x768 (W4 m ρ c (Proc.devRef .tc main_v7)) shapeCasts_S4096x768_S4x1024x768 := by
  show StableHlo.after hostOps2 (W4 m ρ c) (Proc.devRef .tc main_v8) = _
  after_results <;> rfl

/-- The attention array at coordinates. -/
theorem Z_apply (X : S4x1024x768.Idx → EReal) (W : S2304x768.Idx → EReal) (bq : S1x2304.Idx → EReal) (b : Fin 4) (s : Fin 1024) (d : Fin 768) :
    R0.Z X W bq (ix3 b s d)
      = zatt (fun s' j => qkvrow (fun j d => W (ix2 j d)) (fun j => bq (ix2 (0 : Fin 1) j)) (fun d => X (ix3 b s' d)) j) s d := rfl

/-- The block's output array at coordinates. -/
theorem O_apply (Zf Xf : S4096x768.Idx → EReal) (Wp : S768x768.Idx → EReal) (bp : S1x768.Idx → EReal) (W1 : S3072x768.Idx → EReal)
    (b1 : S1x3072.Idx → EReal) (W2 : S768x3072.Idx → EReal) (b2 : S1x768.Idx → EReal) (n : Fin 4096) (o : Fin 768) :
    R1.O Zf Xf Wp bp W1 b1 W2 b2 (ix2 n o)
      = outrow (fun j d => W1 (ix2 j d)) (fun j => b1 (ix2 (0 : Fin 1) j)) (fun o j => W2 (ix2 o j)) (fun o => b2 (ix2 (0 : Fin 1) o))
          (x1row (fun o d => Wp (ix2 o d)) (fun o => bp (ix2 (0 : Fin 1) o)) (fun d => Zf (ix2 n d)) (fun d => Xf (ix2 n d))) o := rfl

/-- The specification's block function at coordinates. -/
theorem G_apply (X : S4x1024x768.Idx → EReal) (Wqkv : S2304x768.Idx → EReal) (bqkv : S2304.Idx → EReal) (Wp : S768x768.Idx → EReal)
    (bp : S768.Idx → EReal) (W1 : S3072x768.Idx → EReal) (b1 : S3072.Idx → EReal) (W2 : S768x3072.Idx → EReal) (b2 : S768.Idx → EReal)
    (b : Fin 4) (s : Fin 1024) (o : Fin 768) :
    G X Wqkv bqkv Wp bp W1 b1 W2 b2 (ix3 b s o)
      = outrow (fun j d => W1 (ix2 j d)) (fun j => b1 (ix1 j)) (fun o j => W2 (ix2 o j)) (fun o => b2 (ix1 o))
          (x1row (fun o d => Wp (ix2 o d)) (fun o => bp (ix1 o))
            (zatt (fun s' j => qkvrow (fun j d => Wqkv (ix2 j d)) (fun j => bqkv (ix1 j)) (fun d => X (ix3 b s' d)) j) s)
            (fun d => X (ix3 b s d))) o := rfl

/-- THE KERNEL'S VALUE: at the return the result buffer holds the specification's block function of the
    nine argument arrays as launched. -/
theorem kernel_value (h0 : R0.PayloadIsSpec) (h1 : R1.PayloadIsSpec) (c : Dev nD) :
    W5 m ρ c (Proc.devRef .tc main_v8)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [W5_out m ρ c, W4_arr m ρ c 8, R1.final (V3 m ρ) h1 c,
    V3_z m ρ h0 c, V3_x m ρ c, V3_wp m ρ c, V3_bp m ρ c, V3_w1 m ρ c, V3_b1 m ρ c, V3_w2 m ρ c, V3_b2 m ρ c]
  funext i
  obtain ⟨b, s, o, rfl⟩ : ∃ (b : Fin 4) (s : Fin 1024) (o : Fin 768), i = ix3 b s o := ⟨i 0, i 1, i 2, eq_ix3 i⟩
  have hn : 1024 * b.val + s.val < 4096 := by have := b.isLt; have := s.isLt; omega
  rw [unflat_apply _ b s o hn, O_apply, G_apply]
  have e0 : ∀ d : Fin 768, shapeCast S4096x768 (m ((c : Thread nD τ).loc main_arg0)) shapeCasts_S4x1024x768_S4096x768
      (ix2 (⟨1024 * b.val + s.val, hn⟩ : Fin 4096) d) = m ((c : Thread nD τ).loc main_arg0) (ix3 b s d) := fun d => flat_apply _ b s d hn
  have e4 : ∀ j : Fin 768, shapeCast S1x768 (m ((c : Thread nD τ).loc main_arg4)) shapeCasts_S768_S1x768 (ix2 (0 : Fin 1) j)
      = m ((c : Thread nD τ).loc main_arg4) (ix1 j) := fun j => row768_apply _ j
  have e6 : ∀ j : Fin 3072, shapeCast S1x3072 (m ((c : Thread nD τ).loc main_arg6)) shapeCasts_S3072_S1x3072 (ix2 (0 : Fin 1) j)
      = m ((c : Thread nD τ).loc main_arg6) (ix1 j) := fun j => row3072_apply _ j
  have e8 : ∀ j : Fin 768, shapeCast S1x768 (m ((c : Thread nD τ).loc main_arg8)) shapeCasts_S768_S1x768 (ix2 (0 : Fin 1) j)
      = m ((c : Thread nD τ).loc main_arg8) (ix1 j) := fun j => row768_apply _ j
  simp only [flat_apply, Z_apply, row2304_apply, e0, e4, e6, e8]

end Cert.QBlock.KV

end
-- ==== Proof.AttnA.lean ====
/-
  One attention head of the kernel's block, read at an index.

  The block computes, from the projected tokens Y : [1024, 2304], for each of the twelve heads the same term at
  three column offsets oq, ok, ov:

      head[s, e] = rq16 ( Σ_t rq16 ( Σ_e' Y[s, oq + e'] · Y[t, ok + e'] ) · Y[t, ov + e] ).

  This file states that term once, generically in the offsets, and reads it at an index.
-/
import proofs.«107285_j86406152061476_2_alg».proof.Proof.Gen.KernelIdeal.Skeleton
import proofs.«107285_j86406152061476_2_alg».proof.Proof.Spec
import Idealize.ShloMosaic.Lib.Pipeline.Value
import Idealize.ShloMosaic.PureOps.Ideal.Laws

noncomputable section

open scoped BigOperators

namespace Cert.QBlock.Attn

open Idealize.ShloMosaic Idealize.ShloMosaic.ValueIdx Cert.KernelIdeal Cert.KernelIdeal.Gen

/-- queries times keys: contracts the second axis of both operands -/
abbrev DQK := dot_S1024x64_S1024x64_S1024x1024_1_1_0_0_n_n
/-- scores times values: contracts the second axis of the scores with the first of the values -/
abbrev DSV := dot_S1024x1024_S1024x64_S1024x64_1_0_0_1_n_n

/-! ## The two products read at an index -/

theorem DQK_lhs0 (i : S1024x1024.Idx) (q : DQK.contr.Idx) : (DQK.lhsIdx i q 0).val = (i 0).val := by
  unfold DotDims.lhsIdx
  rw [dif_neg (show ¬(0 : Fin S1024x64.rank) ∈ DQK.lhsBatch by decide), dif_pos (show (0 : Fin S1024x64.rank) ∈ DQK.lhsNonContracting by decide)]
  rfl
theorem DQK_lhs1 (i : S1024x1024.Idx) (q : DQK.contr.Idx) : (DQK.lhsIdx i q 1).val = (q ⟨0, by decide⟩).val :=
  DQK.lhsIdx_val_of_single rfl i q
theorem DQK_rhs0 (i : S1024x1024.Idx) (q : DQK.contr.Idx) : (DQK.rhsIdx i q 0).val = (i 1).val := by
  unfold DotDims.rhsIdx
  rw [dif_neg (show ¬(0 : Fin S1024x64.rank) ∈ DQK.rhsBatch by decide), dif_pos (show (0 : Fin S1024x64.rank) ∈ DQK.rhsNonContracting by decide)]
  rfl
theorem DQK_rhs1 (i : S1024x1024.Idx) (q : DQK.contr.Idx) : (DQK.rhsIdx i q 1).val = (q ⟨0, by decide⟩).val :=
  DQK.rhsIdx_val_of_single rfl i q

/-- (a · bᵀ)[s, t] = Σ_e a[s, e] · b[t, e] -/
theorem matmul_qk_apply (a b : FVec Ideal S1024x64 .f32) (s t : Fin 1024) :
    matmul DQK none a b (constant (F := Ideal) S1024x1024 .f32 0x00000000#32) (ix2 s t)
      = ∑ e : Fin 64, a (ix2 s e) * b (ix2 t e) := by
  refine (Ideal.matmul_constant_zero_apply DQK none a b (ix2 s t)).trans ?_
  rw [← Equiv.sum_comp (contrEquiv1 DQK 64 rfl rfl).symm]
  refine Finset.sum_congr rfl fun k _ => ?_
  have hk := contrEquiv1_symm_val DQK 64 rfl rfl k
  have el : DQK.lhsIdx (ix2 s t) ((contrEquiv1 DQK 64 rfl rfl).symm k) = ix2 s k := funext fun a => Fin.ext (by
    match a with
    | ⟨0, _⟩ => exact DQK_lhs0 _ _
    | ⟨1, _⟩ => exact (DQK_lhs1 _ _).trans hk)
  have er : DQK.rhsIdx (ix2 s t) ((contrEquiv1 DQK 64 rfl rfl).symm k) = ix2 t k := funext fun a => Fin.ext (by
    match a with
    | ⟨0, _⟩ => exact DQK_rhs0 _ _
    | ⟨1, _⟩ => exact (DQK_rhs1 _ _).trans hk)
  rw [el, er]

theorem DSV_lhs0 (i : S1024x64.Idx) (q : DSV.contr.Idx) : (DSV.lhsIdx i q 0).val = (i 0).val := by
  unfold DotDims.lhsIdx
  rw [dif_neg (show ¬(0 : Fin S1024x1024.rank) ∈ DSV.lhsBatch by decide), dif_pos (show (0 : Fin S1024x1024.rank) ∈ DSV.lhsNonContracting by decide)]
  rfl
theorem DSV_lhs1 (i : S1024x64.Idx) (q : DSV.contr.Idx) : (DSV.lhsIdx i q 1).val = (q ⟨0, by decide⟩).val :=
  DSV.lhsIdx_val_of_single rfl i q
theorem DSV_rhs0 (i : S1024x64.Idx) (q : DSV.contr.Idx) : (DSV.rhsIdx i q 0).val = (q ⟨0, by decide⟩).val :=
  DSV.rhsIdx_val_of_single rfl i q
theorem DSV_rhs1 (i : S1024x64.Idx) (q : DSV.contr.Idx) : (DSV.rhsIdx i q 1).val = (i 1).val := by
  unfold DotDims.rhsIdx
  rw [dif_neg (show ¬(1 : Fin S1024x64.rank) ∈ DSV.rhsBatch by decide), dif_pos (show (1 : Fin S1024x64.rank) ∈ DSV.rhsNonContracting by decide)]
  rfl

/-- (a · b)[s, e] = Σ_t a[s, t] · b[t, e] -/
theorem matmul_sv_apply (a : FVec Ideal S1024x1024 .f32) (b : FVec Ideal S1024x64 .f32) (s : Fin 1024) (e : Fin 64) :
    matmul DSV none a b (constant (F := Ideal) S1024x64 .f32 0x00000000#32) (ix2 s e)
      = ∑ t : Fin 1024, a (ix2 s t) * b (ix2 t e) := by
  refine (Ideal.matmul_constant_zero_apply DSV none a b (ix2 s e)).trans ?_
  rw [← Equiv.sum_comp (contrEquiv1 DSV 1024 rfl rfl).symm]
  refine Finset.sum_congr rfl fun k _ => ?_
  have hk := contrEquiv1_symm_val DSV 1024 rfl rfl k
  have el : DSV.lhsIdx (ix2 s e) ((contrEquiv1 DSV 1024 rfl rfl).symm k) = ix2 s k := funext fun a => Fin.ext (by
    match a with
    | ⟨0, _⟩ => exact DSV_lhs0 _ _
    | ⟨1, _⟩ => exact (DSV_lhs1 _ _).trans hk)
  have er : DSV.rhsIdx (ix2 s e) ((contrEquiv1 DSV 1024 rfl rfl).symm k) = ix2 k e := funext fun a => Fin.ext (by
    match a with
    | ⟨0, _⟩ => exact (DSV_rhs0 _ _).trans hk
    | ⟨1, _⟩ => exact DSV_rhs1 _ _)
  rw [el, er]

/-! ## A column slice and a re-quantization read at an index -/

/-- the 64 columns from column `o` on -/
theorem slice_apply (Y : FVec Ideal S1024x2304 .f32) (o : Nat) (w : S1024x2304.Slices ![0, o] S1024x64) (h : o + 64 ≤ 2304)
    (s : Fin 1024) (e : Fin 64) :
    extractStridedSlice S1024x64 ![0, o] Y w (ix2 s e) = Y (ix2 s ⟨o + e.val, by have := e.isLt; omega⟩) :=
  extractStridedSlice_apply ![0, o] Y w (ix2 s e) (ix2 s ⟨o + e.val, by have := e.isLt; omega⟩) (fun a => match a with
    | ⟨0, _⟩ => by show s.val = 0 + s.val; omega
    | ⟨1, _⟩ => by show o + e.val = o + e.val; rfl)

/-- divide by 2, round down, saturate to 16 bits: the vector form at an index is the scalar re-quantization -/
theorem rq16v_apply {s : Shape} (X : FVec Ideal s .f32) (j : s.Idx) :
    minimumf (broadcast s (Scalar.ofBits (F := Ideal) .f32 0x46FFFE00#32))
      (maximumf (broadcast s (Scalar.ofBits (F := Ideal) .f32 0xC7000000#32))
        (floor (divf X (broadcast s (Scalar.ofBits (F := Ideal) .f32 0x40000000#32))))) j = rq16 (X j) := rfl

/-! ## One head -/

/-- One head's output from the projected tokens, at the column offsets `oq`, `ok`, `ov` of its queries, keys and values. -/
def headTerm (Y : FVec Ideal S1024x2304 .f32) (oq ok ov : Nat)
    (wq : S1024x2304.Slices ![0, oq] S1024x64) (wk : S1024x2304.Slices ![0, ok] S1024x64) (wv : S1024x2304.Slices ![0, ov] S1024x64) :
    FVec Ideal S1024x64 .f32 :=
  minimumf (broadcast S1024x64 (Scalar.ofBits (F := Ideal) .f32 0x46FFFE00#32))
    (maximumf (broadcast S1024x64 (Scalar.ofBits (F := Ideal) .f32 0xC7000000#32))
      (floor (divf
        (matmul DSV none
          (minimumf (broadcast S1024x1024 (Scalar.ofBits (F := Ideal) .f32 0x46FFFE00#32))
            (maximumf (broadcast S1024x1024 (Scalar.ofBits (F := Ideal) .f32 0xC7000000#32))
              (floor (divf
                (matmul DQK none (extractStridedSlice S1024x64 ![0, oq] Y wq) (extractStridedSlice S1024x64 ![0, ok] Y wk)
                  (constant (F := Ideal) S1024x1024 .f32 0x00000000#32))
                (broadcast S1024x1024 (Scalar.ofBits (F := Ideal) .f32 0x40000000#32))))))
          (extractStridedSlice S1024x64 ![0, ov] Y wv)
          (constant (F := Ideal) S1024x64 .f32 0x00000000#32))
        (broadcast S1024x64 (Scalar.ofBits (F := Ideal) .f32 0x40000000#32)))))

/-- The head read at token `s`, coordinate `e`. -/
theorem headTerm_apply (Y : FVec Ideal S1024x2304 .f32) (oq ok ov : Nat)
    (wq : S1024x2304.Slices ![0, oq] S1024x64) (wk : S1024x2304.Slices ![0, ok] S1024x64) (wv : S1024x2304.Slices ![0, ov] S1024x64)
    (hq : oq + 64 ≤ 2304) (hk : ok + 64 ≤ 2304) (hv : ov + 64 ≤ 2304) (s : Fin 1024) (e : Fin 64) :
    headTerm Y oq ok ov wq wk wv (ix2 s e)
      = rq16 (∑ t : Fin 1024,
          rq16 (∑ e' : Fin 64, Y (ix2 s ⟨oq + e'.val, by have := e'.isLt; omega⟩) * Y (ix2 t ⟨ok + e'.val, by have := e'.isLt; omega⟩))
            * Y (ix2 t ⟨ov + e.val, by have := e.isLt; omega⟩)) := by
  unfold headTerm
  refine (rq16v_apply _ _).trans (congrArg rq16 ?_)
  refine (matmul_sv_apply _ _ s e).trans (Finset.sum_congr rfl fun t _ => ?_)
  refine congrArg₂ (· * ·) ?_ (slice_apply Y ov wv hv t e)
  refine (rq16v_apply _ _).trans (congrArg rq16 ?_)
  refine (matmul_qk_apply _ _ s t).trans (Finset.sum_congr rfl fun e' _ => ?_)
  exact congrArg₂ (· * ·) (slice_apply Y oq wq hq s e') (slice_apply Y ok wk hk t e')

end Cert.QBlock.Attn

end
-- ==== Proof.AttnB.lean ====
/-
  The attention block as a function of its three argument arrays.

  The projected tokens Y are the re-quantized fused projection; the block is the twelve heads of Y side by side,
  head n taking the query, key and value columns from 192 n, 192 n + 64 and 192 n + 128 on.
-/
import proofs.«107285_j86406152061476_2_alg».proof.Proof.AttnA
import Idealize.ShloMosaic.Lib.ValueLayout

noncomputable section

open scoped BigOperators

namespace Cert.QBlock.Attn

open Idealize.ShloMosaic Idealize.ShloMosaic.ValueIdx Cert.KernelIdeal Cert.KernelIdeal.Gen

/-! ## The fused projection -/

/-- tokens times weightsᵀ: contracts the second axis of both operands -/
abbrev DP := dot_S1024x768_S2304x768_S1024x2304_1_1_0_0_n_n

theorem DP_lhs0 (i : S1024x2304.Idx) (q : DP.contr.Idx) : (DP.lhsIdx i q 0).val = (i 0).val := by
  unfold DotDims.lhsIdx
  rw [dif_neg (show ¬(0 : Fin S1024x768.rank) ∈ DP.lhsBatch by decide), dif_pos (show (0 : Fin S1024x768.rank) ∈ DP.lhsNonContracting by decide)]
  rfl
theorem DP_lhs1 (i : S1024x2304.Idx) (q : DP.contr.Idx) : (DP.lhsIdx i q 1).val = (q ⟨0, by decide⟩).val :=
  DP.lhsIdx_val_of_single rfl i q
theorem DP_rhs0 (i : S1024x2304.Idx) (q : DP.contr.Idx) : (DP.rhsIdx i q 0).val = (i 1).val := by
  unfold DotDims.rhsIdx
  rw [dif_neg (show ¬(0 : Fin S2304x768.rank) ∈ DP.rhsBatch by decide), dif_pos (show (0 : Fin S2304x768.rank) ∈ DP.rhsNonContracting by decide)]
  rfl
theorem DP_rhs1 (i : S1024x2304.Idx) (q : DP.contr.Idx) : (DP.rhsIdx i q 1).val = (q ⟨0, by decide⟩).val :=
  DP.rhsIdx_val_of_single rfl i q

/-- (a · bᵀ)[s, j] = Σ_d a[s, d] · b[j, d] -/
theorem matmul_p_apply (a : FVec Ideal S1024x768 .bf16) (b : FVec Ideal S2304x768 .bf16) (s : Fin 1024) (j : Fin 2304) :
    matmul DP none a b (constant (F := Ideal) S1024x2304 .f32 0x00000000#32) (ix2 s j)
      = ∑ d : Fin 768, a (ix2 s d) * b (ix2 j d) := by
  refine (Ideal.matmul_constant_zero_apply DP none a b (ix2 s j)).trans ?_
  rw [← Equiv.sum_comp (contrEquiv1 DP 768 rfl rfl).symm]
  refine Finset.sum_congr rfl fun k _ => ?_
  have hk := contrEquiv1_symm_val DP 768 rfl rfl k
  have el : DP.lhsIdx (ix2 s j) ((contrEquiv1 DP 768 rfl rfl).symm k) = ix2 s k := funext fun a => Fin.ext (by
    match a with
    | ⟨0, _⟩ => exact DP_lhs0 _ _
    | ⟨1, _⟩ => exact (DP_lhs1 _ _).trans hk)
  have er : DP.rhsIdx (ix2 s j) ((contrEquiv1 DP 768 rfl rfl).symm k) = ix2 j k := funext fun a => Fin.ext (by
    match a with
    | ⟨0, _⟩ => exact DP_rhs0 _ _
    | ⟨1, _⟩ => exact (DP_rhs1 _ _).trans hk)
  rw [el, er]

/-- The projected tokens at token `s`, column `j`: the specification's fused projection of token `s`. -/
theorem pay2_apply (x0 : Vec Ideal S1x1024x768 .f32) (x1 : Vec Ideal S2304x768 .f32) (x2 : Vec Ideal S1x2304 .f32)
    (s : Fin 1024) (j : Fin 2304) :
    k0_pay2 (F := Ideal) x0 x1 x2 (ix2 s j)
      = qkvrow (fun j d => x1 (ix2 j d)) (fun j => x2 (ix2 (0 : Fin 1) j)) (fun d => x0 (ix3 (0 : Fin 1) s d)) j := by
  unfold k0_pay2 qkvrow
  refine (rq16v_apply _ _).trans (congrArg rq16 ?_)
  refine congrArg₂ (· + ·) ?_ ?_
  · refine (matmul_p_apply _ _ s j).trans (Finset.sum_congr rfl fun d _ => ?_)
    refine congrArg₂ (· * ·) ?_ rfl
    exact shapeCast_1ab_ab_apply x0 _ s d
  · refine (broadcastTo_1b_ab_apply _ _ s j).trans ?_
    refine congrArg₂ (· * ·) ?_ rfl
    exact (shapeCast_a_1a_apply _ _ 0 j).trans (shapeCast_1a_a_apply x2 _ j)

/-! ## The twelve heads -/

/-- 64 columns from column `o` on fit while `o + 64 ≤ 2304` -/
theorem slicesAt (o : Nat) (h : o + 64 ≤ 2304) : S1024x2304.Slices ![0, o] S1024x64 :=
  ⟨rfl, fun a => match a with
    | ⟨0, _⟩ => by show 0 + 1024 ≤ 1024; omega
    | ⟨1, _⟩ => by show o + 64 ≤ 2304; exact h⟩

/-- the head whose queries start at column `o`, keys at `o + 64`, values at `o + 128` -/
def headAt (Y : FVec Ideal S1024x2304 .f32) (o : Nat) (h : o + 192 ≤ 2304) : FVec Ideal S1024x64 .f32 :=
  headTerm Y o (o + 64) (o + 128) (slicesAt o (by omega)) (slicesAt (o + 64) (by omega)) (slicesAt (o + 128) (by omega))

/-- head `n` of twelve -/
def heads (Y : FVec Ideal S1024x2304 .f32) (n : Fin 12) : FVec Ideal S1024x64 .f32 :=
  headAt Y (192 * n.val) (by have := n.isLt; omega)

/-- A head read at an index is the specification's head, whatever coordinate function `Yf` the projected tokens are. -/
theorem heads_apply (Y : FVec Ideal S1024x2304 .f32) (Yf : Fin 1024 → Fin 2304 → EReal) (hY : ∀ s j, Y (ix2 s j) = Yf s j)
    (n : Fin 12) (s : Fin 1024) (e : Fin 64) : heads Y n (ix2 s e) = zhead Yf n s e := by
  unfold heads headAt zhead score colQ colK colV
  refine (headTerm_apply Y _ _ _ _ _ _ (by have := n.isLt; omega) (by have := n.isLt; omega) (by have := n.isLt; omega) s e).trans ?_
  simp only [hY]

/-- The block before its final cast IS the twelve heads side by side: the program spells each head out at its literal
    offsets, and cuts the text of some heads into several named pieces. -/
theorem block_eq (x0 : Vec Ideal S1x1024x768 .f32) (x1 : Vec Ideal S2304x768 .f32) (x2 : Vec Ideal S1x2304 .f32) :
    k0_pay20 (F := Ideal) (k0_pay2 x0 x1 x2) (k0_pay3 x0 x1 x2) (k0_pay4 (k0_pay2 x0 x1 x2)) (k0_pay5 (k0_pay2 x0 x1 x2))
      (k0_pay8 (k0_pay6 (k0_pay2 x0 x1 x2)) (k0_pay7 (k0_pay2 x0 x1 x2)) (Scalar.ofBits .f32 0x40000000#32))
      (k0_pay9 (k0_pay2 x0 x1 x2))
      (k0_pay13 (k0_pay10 (k0_pay2 x0 x1 x2)) (k0_pay11 (k0_pay2 x0 x1 x2)) (Scalar.ofBits .f32 0x46FFFE00#32) (k0_pay12 (F := Ideal)))
      (k0_pay14 (k0_pay2 x0 x1 x2))
      (k0_pay16 (k0_pay15 (k0_pay2 x0 x1 x2)) (Scalar.ofBits .f32 0x40000000#32))
      (k0_pay17 (k0_pay2 x0 x1 x2)) (k0_pay18 (k0_pay2 x0 x1 x2)) (Scalar.ofBits .f32 0x46FFFE00#32) (k0_pay19 (F := Ideal))
    = concatenate S1024x768 1
        (List.ofFn fun n : Fin 12 => (⟨S1024x64, heads (k0_pay2 (F := Ideal) x0 x1 x2) n⟩ : (s : Shape) × (s.Idx → Ideal .f32)))
        concatenates_S1024x64_S1024x64_S1024x64_S1024x64_S1024x64_S1024x64_S1024x64_S1024x64_S1024x64_S1024x64_S1024x64_S1024x64_S1024x768_d1 := rfl

/-- The heads side by side at column `c`: head `c / 64` at coordinate `c % 64`. -/
theorem cat_apply (Y : FVec Ideal S1024x2304 .f32) (s : Fin 1024) (c : Fin 768) :
    concatenate S1024x768 1
        (List.ofFn fun n : Fin 12 => (⟨S1024x64, heads Y n⟩ : (s : Shape) × (s.Idx → Ideal .f32)))
        concatenates_S1024x64_S1024x64_S1024x64_S1024x64_S1024x64_S1024x64_S1024x64_S1024x64_S1024x64_S1024x64_S1024x64_S1024x64_S1024x768_d1 (ix2 s c)
      = heads Y ⟨c.val / 64, by have := c.isLt; omega⟩ (ix2 s ⟨c.val % 64, Nat.mod_lt _ (by norm_num)⟩) :=
  concatenate_ofFn_apply (t := S1024x768) (s₁ := S1024x64) 1 (heads Y) concatenates_S1024x64_S1024x64_S1024x64_S1024x64_S1024x64_S1024x64_S1024x64_S1024x64_S1024x64_S1024x64_S1024x64_S1024x64_S1024x768_d1 rfl 64 rfl (ix2 s c)
    ⟨c.val / 64, by have := c.isLt; omega⟩ rfl (ix2 s ⟨c.val % 64, Nat.mod_lt _ (by norm_num)⟩) rfl
    (fun b hb => match b, hb with
      | ⟨0, _⟩, _ => rfl
      | ⟨1, _⟩, hb => absurd rfl hb)

end Cert.QBlock.Attn

end
-- ==== Proof.Attn.lean ====
/-
  The attention kernel's block is the specification: what the body leaves in its output buffer, read at an index, is
  the specification's attention output of the fused projections of the batch element's tokens.
-/
import proofs.«107285_j86406152061476_2_alg».proof.Proof.Gen.KernelIdeal.Frame
import proofs.«107285_j86406152061476_2_alg».proof.Proof.AttnB

noncomputable section

open scoped BigOperators

namespace Cert.QBlock.Attn

open Idealize.ShloMosaic Idealize.ShloMosaic.ValueIdx Cert.KernelIdeal Cert.KernelIdeal.Gen

/-- the whole-buffer rectangle's offsets are zero -/
theorem off3_zero : (![0, 0, 0] : Fin 3 → Nat) = fun _ => 0 := funext fun a => by fin_cases a <;> rfl
theorem off2_zero : (![0, 0] : Fin 2 → Nat) = fun _ => 0 := funext fun a => by fin_cases a <;> rfl

/-- the final cast adds a leading unit axis -/
theorem pay1_apply (v : FVec Ideal S1024x768 .f32) (u : Fin 1) (s : Fin 1024) (c : Fin 768) :
    k0_pay1 (F := Ideal) v (ix3 u s c) = v (ix2 s c) := by
  unfold k0_pay1
  exact shapeCast_ab_1ab_apply v _ u s c

theorem out0_3_apply (x0 : Vec Ideal S1x1024x768 .f32) (x1 : Vec Ideal S2304x768 .f32) (x2 : Vec Ideal S1x2304 .f32)
    (s : Fin 1024) (c : Fin 768) :
    Cert.KernelIdeal.Gen.out0_3 (F := Ideal) x0 x1 x2 (ix3 (0 : Fin 1) s c)
      = Cert.QBlock.zatt (fun s' j => Cert.QBlock.qkvrow (fun j d => x1 (ix2 j d)) (fun j => x2 (ix2 (0 : Fin 1) j))
          (fun d => x0 (ix3 (0 : Fin 1) s' d)) j) s c := by
  unfold Cert.KernelIdeal.Gen.out0_3
  rw [View.canon_unit_zero off3_zero]
  simp only [View.ld_unit_zero (S := S1x1024x768) off3_zero, View.ld_unit_zero (S := S2304x768) off2_zero,
    View.ld_unit_zero (S := S1x2304) off2_zero]
  refine (pay1_apply _ 0 s c).trans ?_
  rw [block_eq x0 x1 x2]
  refine (cat_apply _ s c).trans ?_
  exact heads_apply _ _ (fun s' j => pay2_apply x0 x1 x2 s' j) _ s _

end Cert.QBlock.Attn

end
-- ==== Proof.Mlp.lean ====
/-
  The projection-and-MLP step of the quantized transformer block, read element by element.

  For one token `r` the step computes, from the attention output row `z` and the input row `x`,

    x1[o]  = rq16 ( Σ_d z[d] · Wp[o, d] + bp[o] · 2 ) + rq16' ( x[o] )
    hid[j] = rq32 ( Σ_d x1[d] · W1[j, d] + b1[j] · 2 )
    out[o] = rq31 ( Σ_j hid[j] · W2[o, j] + b2[o] · 4 ) + rq31' ( x1[o] )

  as three matrix products that each contract axis 1 of both operands into a zero accumulator, three bias
  rows scaled and repeated over the 512 tokens of the block, and pointwise divide / round-down / saturate.
  Over the extended reals every one of these is exact, so each value is, index by index, the specification's
  formula: a matrix product at `(p, q)` is the sum over the contracted coordinate, a repeated row at `(p, q)`
  is the row at `q`, and a pointwise operation at an index is the operation on the elements.
-/
import proofs.«107285_j86406152061476_2_alg».proof.Proof.Gen.KernelIdeal.Frame
import proofs.«107285_j86406152061476_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.QBlock.Mlp

open Idealize.ShloMosaic Idealize.ShloMosaic.ValueIdx Idealize.SL.Sem
open Cert.KernelIdeal Cert.KernelIdeal.Gen

/-- The whole-block rectangle's offsets are zero. -/
theorem hz : (![0, 0] : Fin 2 → Nat) = fun _ => 0 := funext fun a => by fin_cases a <;> rfl

/-- A vector rounded down, read at an index: the element rounded down. -/
theorem floor_apply {s : Shape} {φ : FTy} (a : FVec Ideal s φ) (i : s.Idx) : floor a i = Ideal.liftRound Int.floor (a i) := rfl

theorem mm_proj_lhs0 (i : S512x768.Idx) (q : dot_S512x768_S768x768_S512x768_1_1_0_0_n_n.contr.Idx) : (dot_S512x768_S768x768_S512x768_1_1_0_0_n_n.lhsIdx i q 0).val = (i 0).val := by
  unfold DotDims.lhsIdx
  rw [dif_neg (show ¬(0 : Fin S512x768.rank) ∈ dot_S512x768_S768x768_S512x768_1_1_0_0_n_n.lhsBatch by decide), dif_pos (show (0 : Fin S512x768.rank) ∈ dot_S512x768_S768x768_S512x768_1_1_0_0_n_n.lhsNonContracting by decide)]
  rfl
theorem mm_proj_lhs1 (i : S512x768.Idx) (q : dot_S512x768_S768x768_S512x768_1_1_0_0_n_n.contr.Idx) : (dot_S512x768_S768x768_S512x768_1_1_0_0_n_n.lhsIdx i q 1).val = (q ⟨0, by decide⟩).val :=
  dot_S512x768_S768x768_S512x768_1_1_0_0_n_n.lhsIdx_val_of_single rfl i q
theorem mm_proj_rhs0 (i : S512x768.Idx) (q : dot_S512x768_S768x768_S512x768_1_1_0_0_n_n.contr.Idx) : (dot_S512x768_S768x768_S512x768_1_1_0_0_n_n.rhsIdx i q 0).val = (i 1).val := by
  unfold DotDims.rhsIdx
  rw [dif_neg (show ¬(0 : Fin S768x768.rank) ∈ dot_S512x768_S768x768_S512x768_1_1_0_0_n_n.rhsBatch by decide), dif_pos (show (0 : Fin S768x768.rank) ∈ dot_S512x768_S768x768_S512x768_1_1_0_0_n_n.rhsNonContracting by decide)]
  rfl
theorem mm_proj_rhs1 (i : S512x768.Idx) (q : dot_S512x768_S768x768_S512x768_1_1_0_0_n_n.contr.Idx) : (dot_S512x768_S768x768_S512x768_1_1_0_0_n_n.rhsIdx i q 1).val = (q ⟨0, by decide⟩).val :=
  dot_S512x768_S768x768_S512x768_1_1_0_0_n_n.rhsIdx_val_of_single rfl i q

/-- The matrix product that contracts axis 1 of both operands, into a zero accumulator, read at `(p, q)`:
    the sum over `k` of the left operand's row `p` times the right operand's row `q`. -/
theorem mm_proj (l : FVec Ideal S512x768 .f32) (r : FVec Ideal S768x768 .f32) (p : Fin 512) (q : Fin 768) :
    matmul dot_S512x768_S768x768_S512x768_1_1_0_0_n_n none l r (constant (F := Ideal) S512x768 .f32 0x00000000#32) (ix2 p q)
      = ∑ k : Fin 768, l (ix2 p k) * r (ix2 q k) := by
  refine (Ideal.matmul_constant_zero_apply dot_S512x768_S768x768_S512x768_1_1_0_0_n_n none l r (ix2 p q)).trans ?_
  rw [← Equiv.sum_comp (ValueIdx.contrEquiv1 dot_S512x768_S768x768_S512x768_1_1_0_0_n_n 768 rfl rfl).symm]
  refine Finset.sum_congr rfl fun k _ => ?_
  have hk := ValueIdx.contrEquiv1_symm_val dot_S512x768_S768x768_S512x768_1_1_0_0_n_n 768 rfl rfl k
  have el : dot_S512x768_S768x768_S512x768_1_1_0_0_n_n.lhsIdx (ix2 p q) ((ValueIdx.contrEquiv1 dot_S512x768_S768x768_S512x768_1_1_0_0_n_n 768 rfl rfl).symm k) = ix2 p k := funext fun a => Fin.ext (by
    match a with
    | ⟨0, _⟩ => exact mm_proj_lhs0 _ _
    | ⟨1, _⟩ => exact (mm_proj_lhs1 _ _).trans hk)
  have er : dot_S512x768_S768x768_S512x768_1_1_0_0_n_n.rhsIdx (ix2 p q) ((ValueIdx.contrEquiv1 dot_S512x768_S768x768_S512x768_1_1_0_0_n_n 768 rfl rfl).symm k) = ix2 q k := funext fun a => Fin.ext (by
    match a with
    | ⟨0, _⟩ => exact mm_proj_rhs0 _ _
    | ⟨1, _⟩ => exact (mm_proj_rhs1 _ _).trans hk)
  rw [el, er]

theorem mm_up_lhs0 (i : S512x3072.Idx) (q : dot_S512x768_S3072x768_S512x3072_1_1_0_0_n_n.contr.Idx) : (dot_S512x768_S3072x768_S512x3072_1_1_0_0_n_n.lhsIdx i q 0).val = (i 0).val := by
  unfold DotDims.lhsIdx
  rw [dif_neg (show ¬(0 : Fin S512x768.rank) ∈ dot_S512x768_S3072x768_S512x3072_1_1_0_0_n_n.lhsBatch by decide), dif_pos (show (0 : Fin S512x768.rank) ∈ dot_S512x768_S3072x768_S512x3072_1_1_0_0_n_n.lhsNonContracting by decide)]
  rfl
theorem mm_up_lhs1 (i : S512x3072.Idx) (q : dot_S512x768_S3072x768_S512x3072_1_1_0_0_n_n.contr.Idx) : (dot_S512x768_S3072x768_S512x3072_1_1_0_0_n_n.lhsIdx i q 1).val = (q ⟨0, by decide⟩).val :=
  dot_S512x768_S3072x768_S512x3072_1_1_0_0_n_n.lhsIdx_val_of_single rfl i q
theorem mm_up_rhs0 (i : S512x3072.Idx) (q : dot_S512x768_S3072x768_S512x3072_1_1_0_0_n_n.contr.Idx) : (dot_S512x768_S3072x768_S512x3072_1_1_0_0_n_n.rhsIdx i q 0).val = (i 1).val := by
  unfold DotDims.rhsIdx
  rw [dif_neg (show ¬(0 : Fin S3072x768.rank) ∈ dot_S512x768_S3072x768_S512x3072_1_1_0_0_n_n.rhsBatch by decide), dif_pos (show (0 : Fin S3072x768.rank) ∈ dot_S512x768_S3072x768_S512x3072_1_1_0_0_n_n.rhsNonContracting by decide)]
  rfl
theorem mm_up_rhs1 (i : S512x3072.Idx) (q : dot_S512x768_S3072x768_S512x3072_1_1_0_0_n_n.contr.Idx) : (dot_S512x768_S3072x768_S512x3072_1_1_0_0_n_n.rhsIdx i q 1).val = (q ⟨0, by decide⟩).val :=
  dot_S512x768_S3072x768_S512x3072_1_1_0_0_n_n.rhsIdx_val_of_single rfl i q

/-- The matrix product that contracts axis 1 of both operands, into a zero accumulator, read at `(p, q)`:
    the sum over `k` of the left operand's row `p` times the right operand's row `q`. -/
theorem mm_up (l : FVec Ideal S512x768 .f32) (r : FVec Ideal S3072x768 .f32) (p : Fin 512) (q : Fin 3072) :
    matmul dot_S512x768_S3072x768_S512x3072_1_1_0_0_n_n none l r (constant (F := Ideal) S512x3072 .f32 0x00000000#32) (ix2 p q)
      = ∑ k : Fin 768, l (ix2 p k) * r (ix2 q k) := by
  refine (Ideal.matmul_constant_zero_apply dot_S512x768_S3072x768_S512x3072_1_1_0_0_n_n none l r (ix2 p q)).trans ?_
  rw [← Equiv.sum_comp (ValueIdx.contrEquiv1 dot_S512x768_S3072x768_S512x3072_1_1_0_0_n_n 768 rfl rfl).symm]
  refine Finset.sum_congr rfl fun k _ => ?_
  have hk := ValueIdx.contrEquiv1_symm_val dot_S512x768_S3072x768_S512x3072_1_1_0_0_n_n 768 rfl rfl k
  have el : dot_S512x768_S3072x768_S512x3072_1_1_0_0_n_n.lhsIdx (ix2 p q) ((ValueIdx.contrEquiv1 dot_S512x768_S3072x768_S512x3072_1_1_0_0_n_n 768 rfl rfl).symm k) = ix2 p k := funext fun a => Fin.ext (by
    match a with
    | ⟨0, _⟩ => exact mm_up_lhs0 _ _
    | ⟨1, _⟩ => exact (mm_up_lhs1 _ _).trans hk)
  have er : dot_S512x768_S3072x768_S512x3072_1_1_0_0_n_n.rhsIdx (ix2 p q) ((ValueIdx.contrEquiv1 dot_S512x768_S3072x768_S512x3072_1_1_0_0_n_n 768 rfl rfl).symm k) = ix2 q k := funext fun a => Fin.ext (by
    match a with
    | ⟨0, _⟩ => exact mm_up_rhs0 _ _
    | ⟨1, _⟩ => exact (mm_up_rhs1 _ _).trans hk)
  rw [el, er]

theorem mm_down_lhs0 (i : S512x768.Idx) (q : dot_S512x3072_S768x3072_S512x768_1_1_0_0_n_n.contr.Idx) : (dot_S512x3072_S768x3072_S512x768_1_1_0_0_n_n.lhsIdx i q 0).val = (i 0).val := by
  unfold DotDims.lhsIdx
  rw [dif_neg (show ¬(0 : Fin S512x3072.rank) ∈ dot_S512x3072_S768x3072_S512x768_1_1_0_0_n_n.lhsBatch by decide), dif_pos (show (0 : Fin S512x3072.rank) ∈ dot_S512x3072_S768x3072_S512x768_1_1_0_0_n_n.lhsNonContracting by decide)]
  rfl
theorem mm_down_lhs1 (i : S512x768.Idx) (q : dot_S512x3072_S768x3072_S512x768_1_1_0_0_n_n.contr.Idx) : (dot_S512x3072_S768x3072_S512x768_1_1_0_0_n_n.lhsIdx i q 1).val = (q ⟨0, by decide⟩).val :=
  dot_S512x3072_S768x3072_S512x768_1_1_0_0_n_n.lhsIdx_val_of_single rfl i q
theorem mm_down_rhs0 (i : S512x768.Idx) (q : dot_S512x3072_S768x3072_S512x768_1_1_0_0_n_n.contr.Idx) : (dot_S512x3072_S768x3072_S512x768_1_1_0_0_n_n.rhsIdx i q 0).val = (i 1).val := by
  unfold DotDims.rhsIdx
  rw [dif_neg (show ¬(0 : Fin S768x3072.rank) ∈ dot_S512x3072_S768x3072_S512x768_1_1_0_0_n_n.rhsBatch by decide), dif_pos (show (0 : Fin S768x3072.rank) ∈ dot_S512x3072_S768x3072_S512x768_1_1_0_0_n_n.rhsNonContracting by decide)]
  rfl
theorem mm_down_rhs1 (i : S512x768.Idx) (q : dot_S512x3072_S768x3072_S512x768_1_1_0_0_n_n.contr.Idx) : (dot_S512x3072_S768x3072_S512x768_1_1_0_0_n_n.rhsIdx i q 1).val = (q ⟨0, by decide⟩).val :=
  dot_S512x3072_S768x3072_S512x768_1_1_0_0_n_n.rhsIdx_val_of_single rfl i q

/-- The matrix product that contracts axis 1 of both operands, into a zero accumulator, read at `(p, q)`:
    the sum over `k` of the left operand's row `p` times the right operand's row `q`. -/
theorem mm_down (l : FVec Ideal S512x3072 .f32) (r : FVec Ideal S768x3072 .f32) (p : Fin 512) (q : Fin 768) :
    matmul dot_S512x3072_S768x3072_S512x768_1_1_0_0_n_n none l r (constant (F := Ideal) S512x768 .f32 0x00000000#32) (ix2 p q)
      = ∑ k : Fin 3072, l (ix2 p k) * r (ix2 q k) := by
  refine (Ideal.matmul_constant_zero_apply dot_S512x3072_S768x3072_S512x768_1_1_0_0_n_n none l r (ix2 p q)).trans ?_
  rw [← Equiv.sum_comp (ValueIdx.contrEquiv1 dot_S512x3072_S768x3072_S512x768_1_1_0_0_n_n 3072 rfl rfl).symm]
  refine Finset.sum_congr rfl fun k _ => ?_
  have hk := ValueIdx.contrEquiv1_symm_val dot_S512x3072_S768x3072_S512x768_1_1_0_0_n_n 3072 rfl rfl k
  have el : dot_S512x3072_S768x3072_S512x768_1_1_0_0_n_n.lhsIdx (ix2 p q) ((ValueIdx.contrEquiv1 dot_S512x3072_S768x3072_S512x768_1_1_0_0_n_n 3072 rfl rfl).symm k) = ix2 p k := funext fun a => Fin.ext (by
    match a with
    | ⟨0, _⟩ => exact mm_down_lhs0 _ _
    | ⟨1, _⟩ => exact (mm_down_lhs1 _ _).trans hk)
  have er : dot_S512x3072_S768x3072_S512x768_1_1_0_0_n_n.rhsIdx (ix2 p q) ((ValueIdx.contrEquiv1 dot_S512x3072_S768x3072_S512x768_1_1_0_0_n_n 3072 rfl rfl).symm k) = ix2 q k := funext fun a => Fin.ext (by
    match a with
    | ⟨0, _⟩ => exact mm_down_rhs0 _ _
    | ⟨1, _⟩ => exact (mm_down_rhs1 _ _).trans hk)
  rw [el, er]

/-- A bias row `[1, n]`, cast to `[n]` and back, scaled by the float of word `w`, then repeated over the rows:
    at `(p, q)` it is the row's entry `q` times that float. -/
theorem bias_768 (b : FVec Ideal S1x768 .f32) (w : BitVec 32) (p : Fin 512) (q : Fin 768) :
    broadcastTo S512x768 (mulf (shapeCast S1x768 (shapeCast S768 b shapeCasts_S1x768_S768) shapeCasts_S768_S1x768)
        (broadcast S1x768 (Scalar.ofBits (F := Ideal) .f32 w))) broadcasts_S1x768_S512x768 (ix2 p q)
      = b (ix2 (0 : Fin 1) q) * Ideal.ofBits .f32 w := by
  rw [shapeCast_shapeCast, broadcastTo_1b_ab_apply]
  rfl

/-- A bias row `[1, n]`, cast to `[n]` and back, scaled by the float of word `w`, then repeated over the rows:
    at `(p, q)` it is the row's entry `q` times that float. -/
theorem bias_3072 (b : FVec Ideal S1x3072 .f32) (w : BitVec 32) (p : Fin 512) (q : Fin 3072) :
    broadcastTo S512x3072 (mulf (shapeCast S1x3072 (shapeCast S3072 b shapeCasts_S1x3072_S3072) shapeCasts_S3072_S1x3072)
        (broadcast S1x3072 (Scalar.ofBits (F := Ideal) .f32 w))) broadcasts_S1x3072_S512x3072 (ix2 p q)
      = b (ix2 (0 : Fin 1) q) * Ideal.ofBits .f32 w := by
  rw [shapeCast_shapeCast, broadcastTo_1b_ab_apply]
  rfl

/-- The projected attention output plus the re-quantized input, read at token `r`, coordinate `o`. -/
theorem pay2_apply (z x : Vec Ideal S512x768 .f32) (wp : Vec Ideal S768x768 .f32) (bp : Vec Ideal S1x768 .f32)
    (r : Fin 512) (o : Fin 768) :
    k1_pay2 (F := Ideal) z x wp bp (ix2 r o)
      = x1row (fun o' d => wp (ix2 o' d)) (fun o' => bp (ix2 (0 : Fin 1) o')) (fun d => z (ix2 r d)) (fun d => x (ix2 r d)) o := by
  unfold k1_pay2
  simp only [shapeCast_self, addf_apply, minimumf_apply, maximumf_apply, floor_apply, divf_apply, broadcast_apply, mm_proj, bias_768]
  rfl

/-- The hidden layer before its re-quantization, read at token `r`, unit `j`. -/
theorem pay3_apply (z x : Vec Ideal S512x768 .f32) (wp : Vec Ideal S768x768 .f32) (bp : Vec Ideal S1x768 .f32)
    (w1 : Vec Ideal S3072x768 .f32) (b1 : Vec Ideal S1x3072 .f32) (r : Fin 512) (j : Fin 3072) :
    k1_pay3 (F := Ideal) z x wp bp w1 b1 (ix2 r j)
      = (∑ d : Fin 768, k1_pay2 (F := Ideal) z x wp bp (ix2 r d) * w1 (ix2 j d)) + b1 (ix2 (0 : Fin 1) j) * two := by
  unfold k1_pay3
  generalize k1_pay2 (F := Ideal) z x wp bp = y
  simp only [addf_apply, mm_up, bias_3072]

/-- The block's output from the two earlier values `x1` (`v27`) and the un-quantized hidden layer (`v36`). -/
theorem pay1_apply (v27 : FVec Ideal S512x768 .f32) (v36 : FVec Ideal S512x3072 .f32) (w2 : Vec Ideal S768x3072 .f32)
    (b2 : Vec Ideal S1x768 .f32) (r : Fin 512) (o : Fin 768) :
    k1_pay1 (F := Ideal) v27 v36 w2 b2 (ix2 r o)
      = rq31 ((∑ j : Fin 3072, rq32 (v36 (ix2 r j)) * w2 (ix2 o j)) + b2 (ix2 (0 : Fin 1) o) * four)
        + rq31u (v27 (ix2 r o)) := by
  unfold k1_pay1
  simp only [addf_apply, minimumf_apply, maximumf_apply, floor_apply, divf_apply, broadcast_apply, mm_down, bias_768]
  rfl

/-- The projection-and-MLP kernel's block, element by element, is the specification's output row of the
    specification's `x1` row. -/
theorem out1_8_apply (z : Vec Ideal S512x768 .f32) (x : Vec Ideal S512x768 .f32) (wp : Vec Ideal S768x768 .f32)
    (bp : Vec Ideal S1x768 .f32) (w1 : Vec Ideal S3072x768 .f32) (b1 : Vec Ideal S1x3072 .f32)
    (w2 : Vec Ideal S768x3072 .f32) (b2 : Vec Ideal S1x768 .f32) (r : Fin 512) (o : Fin 768) :
    Cert.KernelIdeal.Gen.out1_8 (F := Ideal) z x wp bp w1 b1 w2 b2 (ix2 r o)
      = Cert.QBlock.outrow (fun j d => w1 (ix2 j d)) (fun j => b1 (ix2 (0 : Fin 1) j)) (fun o' j => w2 (ix2 o' j))
          (fun o' => b2 (ix2 (0 : Fin 1) o'))
          (Cert.QBlock.x1row (fun o' d => wp (ix2 o' d)) (fun o' => bp (ix2 (0 : Fin 1) o')) (fun d => z (ix2 r d))
            (fun d => x (ix2 r d))) o := by
  unfold out1_8
  rw [View.canon_unit_zero hz]
  simp only [View.ld_unit_zero (S := S512x768) hz, View.ld_unit_zero (S := S768x768) hz, View.ld_unit_zero (S := S1x768) hz,
    View.ld_unit_zero (S := S3072x768) hz, View.ld_unit_zero (S := S1x3072) hz, View.ld_unit_zero (S := S768x3072) hz]
  rw [pay1_apply]
  simp only [pay3_apply, pay2_apply]
  rfl

end Cert.QBlock.Mlp

end
-- ==== Proof.RefValueA.lean ====
/-
  General facts used to read the reference program as the specification:
  the float words that occur as real numbers, the straight-through rounding on a real,
  and that every re-quantized value is a real.
-/
import proofs.«107285_j86406152061476_2_alg».proof.Proof.Spec

noncomputable section

open scoped BigOperators

namespace Cert.QBlock.Ref

open Idealize.ShloMosaic Cert.QBlock

/-! ## The words as reals -/

theorem w_two : Ideal.ofBits .f32 0x40000000#32 = ((2 : ℝ) : EReal) := by
  simp [Ideal.ofBits, Ideal.ieee, -EReal.coe_mul]; norm_num
theorem w_one : Ideal.ofBits .f32 0x3F800000#32 = ((1 : ℝ) : EReal) := by
  simp [Ideal.ofBits, Ideal.ieee, -EReal.coe_mul]; norm_num
theorem w_four : Ideal.ofBits .f32 0x40800000#32 = ((4 : ℝ) : EReal) := by
  simp [Ideal.ofBits, Ideal.ieee, -EReal.coe_mul]; norm_num
theorem w_128 : Ideal.ofBits .f32 0x43000000#32 = ((128 : ℝ) : EReal) := by
  simp [Ideal.ofBits, Ideal.ieee, -EReal.coe_mul]; norm_num
theorem w_512 : Ideal.ofBits .f32 0x44000000#32 = ((512 : ℝ) : EReal) := by
  simp [Ideal.ofBits, Ideal.ieee, -EReal.coe_mul]; norm_num
theorem w_lo16 : Ideal.ofBits .f32 0xC7000000#32 = ((-32768 : ℝ) : EReal) := by
  simp [Ideal.ofBits, Ideal.ieee, -EReal.coe_mul]; norm_num
theorem w_hi16 : Ideal.ofBits .f32 0x46FFFE00#32 = ((32767 : ℝ) : EReal) := by
  simp [Ideal.ofBits, Ideal.ieee, -EReal.coe_mul]; norm_num
theorem w_lo32 : Ideal.ofBits .f32 0xCF000000#32 = ((-2147483648 : ℝ) : EReal) := by
  simp [Ideal.ofBits, Ideal.ieee, -EReal.coe_mul]; norm_num
theorem w_hi32 : Ideal.ofBits .f32 0x4F000000#32 = ((2147483648 : ℝ) : EReal) := by
  simp [Ideal.ofBits, Ideal.ieee, -EReal.coe_mul]; norm_num
theorem w_lo31 : Ideal.ofBits .f32 0xCE800000#32 = ((-1073741824 : ℝ) : EReal) := by
  simp [Ideal.ofBits, Ideal.ieee, -EReal.coe_mul]; norm_num
theorem w_hi31 : Ideal.ofBits .f32 0x4E800000#32 = ((1073741824 : ℝ) : EReal) := by
  simp [Ideal.ofBits, Ideal.ieee, -EReal.coe_mul]; norm_num

/-! ## Rounding a real -/

/-- On a real, the straight-through rounding x + (floor x - x) is floor x.  (At an infinity it is not.) -/
theorem ste_floor {x : EReal} (h : IsReal x) : x + (Ideal.liftRound Int.floor x - x) = Ideal.liftRound Int.floor x := by
  obtain ⟨r, rfl⟩ := h
  rw [Ideal.liftRound_coe, ← EReal.coe_sub, ← EReal.coe_add]
  congr 1; ring

/-- A real divided by a nonzero real is a real. -/
theorem div_isReal {x : EReal} {d : ℝ} (hd : d ≠ 0) (h : IsReal x) : IsReal (Ideal.div x (d : EReal)) := by
  rw [Ideal.div_coe hd]; exact h.mul (IsReal.coe _)

/-- A value saturated between two reals is a real. -/
theorem clamp_isReal {a b : ℝ} (hab : a ≤ b) (x : EReal) : IsReal (min (b : EReal) (max (a : EReal) x)) :=
  IsReal.of_between (a := a) (b := b) (le_min (EReal.coe_le_coe_iff.mpr hab) (le_max_left _ _)) (min_le_left _ _)

theorem rq16_isReal (x : EReal) : IsReal (rq16 x) := by
  unfold rq16 requant; rw [w_lo16, w_hi16]; exact clamp_isReal (by norm_num) _
theorem rq16u_isReal (x : EReal) : IsReal (rq16u x) := by
  unfold rq16u requant; rw [w_lo16, w_hi16]; exact clamp_isReal (by norm_num) _
theorem rq32_isReal (x : EReal) : IsReal (rq32 x) := by
  unfold rq32 requant; rw [w_lo32, w_hi32]; exact clamp_isReal (by norm_num) _
theorem rq31_isReal (x : EReal) : IsReal (rq31 x) := by
  unfold rq31 requant; rw [w_lo31, w_hi31]; exact clamp_isReal (by norm_num) _
theorem rq31u_isReal (x : EReal) : IsReal (rq31u x) := by
  unfold rq31u requant; rw [w_lo31, w_hi31]; exact clamp_isReal (by norm_num) _

theorem two_isReal : IsReal two := by unfold two; rw [w_two]; exact IsReal.coe _
theorem four_isReal : IsReal four := by unfold four; rw [w_four]; exact IsReal.coe _

/-! ## One re-quantization site of the reference

The reference divides, rounds by the straight-through form and then saturates with the lower word first:
`min hi (max lo (q + (floor q - q)))` with `q = y / d`.  On a real `y` and a nonzero real divisor this is `requant d lo hi y`. -/

theorem site {d lo hi : BitVec 32} {dr : ℝ} (hd : Ideal.ofBits .f32 d = (dr : EReal)) (hdr : dr ≠ 0) {y : EReal} (hy : IsReal y) :
    min (Ideal.ofBits .f32 hi) (max (Ideal.ofBits .f32 lo)
      (Ideal.div y (Ideal.ofBits .f32 d) + (Ideal.liftRound Int.floor (Ideal.div y (Ideal.ofBits .f32 d)) - Ideal.div y (Ideal.ofBits .f32 d))))
      = requant d lo hi y := by
  unfold requant
  rw [ste_floor (by rw [hd]; exact div_isReal hdr hy)]

theorem site_two {lo hi : BitVec 32} {y : EReal} (hy : IsReal y) :
    min (Ideal.ofBits .f32 hi) (max (Ideal.ofBits .f32 lo)
      (Ideal.div y (Ideal.ofBits .f32 0x40000000#32) + (Ideal.liftRound Int.floor (Ideal.div y (Ideal.ofBits .f32 0x40000000#32)) - Ideal.div y (Ideal.ofBits .f32 0x40000000#32))))
      = requant 0x40000000#32 lo hi y := site w_two (by norm_num) hy
theorem site_one {lo hi : BitVec 32} {y : EReal} (hy : IsReal y) :
    min (Ideal.ofBits .f32 hi) (max (Ideal.ofBits .f32 lo)
      (Ideal.div y (Ideal.ofBits .f32 0x3F800000#32) + (Ideal.liftRound Int.floor (Ideal.div y (Ideal.ofBits .f32 0x3F800000#32)) - Ideal.div y (Ideal.ofBits .f32 0x3F800000#32))))
      = requant 0x3F800000#32 lo hi y := site w_one (by norm_num) hy
theorem site_128 {lo hi : BitVec 32} {y : EReal} (hy : IsReal y) :
    min (Ideal.ofBits .f32 hi) (max (Ideal.ofBits .f32 lo)
      (Ideal.div y (Ideal.ofBits .f32 0x43000000#32) + (Ideal.liftRound Int.floor (Ideal.div y (Ideal.ofBits .f32 0x43000000#32)) - Ideal.div y (Ideal.ofBits .f32 0x43000000#32))))
      = requant 0x43000000#32 lo hi y := site w_128 (by norm_num) hy
theorem site_512 {lo hi : BitVec 32} {y : EReal} (hy : IsReal y) :
    min (Ideal.ofBits .f32 hi) (max (Ideal.ofBits .f32 lo)
      (Ideal.div y (Ideal.ofBits .f32 0x44000000#32) + (Ideal.liftRound Int.floor (Ideal.div y (Ideal.ofBits .f32 0x44000000#32)) - Ideal.div y (Ideal.ofBits .f32 0x44000000#32))))
      = requant 0x44000000#32 lo hi y := site w_512 (by norm_num) hy

/-- a dot product of reals plus a real times a real is a real -/
theorem acc_isReal {n : Nat} (f g : Fin n → EReal) (b c : EReal) (hf : ∀ k, IsReal (f k)) (hg : ∀ k, IsReal (g k))
    (hb : IsReal b) (hc : IsReal c) : IsReal ((∑ k : Fin n, f k * g k) + b * c) :=
  (IsReal.sum _ _ fun k _ => (hf k).mul (hg k)).add (hb.mul hc)

theorem dot_isReal {n : Nat} (f g : Fin n → EReal) (hf : ∀ k, IsReal (f k)) (hg : ∀ k, IsReal (g k)) :
    IsReal (∑ k : Fin n, f k * g k) :=
  IsReal.sum _ _ fun k _ => (hf k).mul (hg k)

end Cert.QBlock.Ref

end
-- ==== Proof.RefValueB.lean ====
/-
  The three projections of the reference (query, key, value), read at coordinates:
  each is the fused projection's column 192 h + e, 192 h + 64 + e, 192 h + 128 + e of the token.
-/
import proofs.«107285_j86406152061476_2_alg».proof.Proof.RefRead
import proofs.«107285_j86406152061476_2_alg».proof.Proof.RefValueA

noncomputable section

open scoped BigOperators

namespace Cert.QBlock.Ref

open Idealize.ShloMosaic Idealize.ShloMosaic.ValueIdx Cert.ReferenceIdeal Cert.ReferenceIdeal.Read Cert.QBlock

/-- the projected tokens of batch element `b`: row `s`, fused column `j` -/
def Yb (x0 : (⟨S4x1024x768, .f32⟩ : BufTy).Contents (Elt Ideal)) (x1 : (⟨S2304x768, .f32⟩ : BufTy).Contents (Elt Ideal)) (x2 : (⟨S2304, .f32⟩ : BufTy).Contents (Elt Ideal)) (b : Fin 4) : Fin 1024 → Fin 2304 → EReal :=
  fun s j => qkvrow (fun j d => x1 (ix2 j d)) (fun j => x2 (ix1 j)) (fun d => x0 (ix3 b s d)) j

theorem Yb_isReal (x0 : (⟨S4x1024x768, .f32⟩ : BufTy).Contents (Elt Ideal)) (x1 : (⟨S2304x768, .f32⟩ : BufTy).Contents (Elt Ideal)) (x2 : (⟨S2304, .f32⟩ : BufTy).Contents (Elt Ideal)) (b : Fin 4) (s : Fin 1024) (j : Fin 2304) : IsReal (Yb x0 x1 x2 b s j) :=
  rq16_isReal _

/-! ### query -/

theorem widx_q (h : Fin 12) (e : Fin 64) (k : Fin 768) (i : S12x64x4x1024.Idx) (h0 : (i 0).val = h.val) (h1 : (i 1).val = e.val) :
    idx_main_v0 (idx_main_v2 (lidx_main_v8 i k)) = ix2 (colQ h e) k := by
  funext a
  match a with
  | ⟨0, _⟩ =>
    refine Fin.ext ?_
    show (((i 0).val * 192 + ((i 1).val)) * 768 + k.val) / 768 = 192 * h.val + e.val
    have := k.isLt; have := e.isLt; omega
  | ⟨1, _⟩ =>
    refine Fin.ext ?_
    show (((i 0).val * 192 + ((i 1).val)) * 768 + k.val) % 768 = k.val
    have := k.isLt; omega

theorem bidx_q (b : Fin 4) (h : Fin 12) (s : Fin 1024) (e : Fin 64) :
    idx_main_v1 (idx_main_v5 (idx_main_v10 (idx_main_v13 (ix4 b h s e)))) = ix1 (colQ h e) := by
  funext a
  match a with
  | ⟨0, _⟩ =>
    refine Fin.ext ?_
    show h.val * 192 + (e.val) = 192 * h.val + e.val
    omega

/-- the accumulator of the projection before it is re-quantized -/
theorem acc_q (x0 : (⟨S4x1024x768, .f32⟩ : BufTy).Contents (Elt Ideal)) (x1 : (⟨S2304x768, .f32⟩ : BufTy).Contents (Elt Ideal)) (x2 : (⟨S2304, .f32⟩ : BufTy).Contents (Elt Ideal)) (b : Fin 4) (h : Fin 12) (s : Fin 1024) (e : Fin 64) :
    val_main_v14 (F := Ideal) x0 x1 x2 (ix4 b h s e)
      = (∑ d : Fin 768, x0 (ix3 b s d) * x1 (ix2 (colQ h e) d)) + x2 (ix1 (colQ h e)) * two := by
  rw [val_main_v14_apply, val_main_v9_apply, val_main_v8_apply, val_main_v13_apply, val_main_v12_apply,
    val_main_v10_apply, val_main_v11_apply, val_main_cst_apply, val_main_v5_apply, val_main_v1_apply, bidx_q]
  simp only [Ideal.addf_def, Ideal.mulf_def, Ideal.ofBits_def]
  refine congrArg (· + x2 (ix1 (colQ h e)) * two) ?_
  refine Finset.sum_congr rfl fun k _ => ?_
  rw [val_main_v2_apply, val_main_v0_apply, widx_q h e k (idx_main_v9 (ix4 b h s e)) rfl rfl, mul_comm]
  refine congrArg (· * x1 (ix2 (colQ h e) k)) (congrArg x0 ?_)
  funext a
  match a with
  | ⟨0, _⟩ => rfl
  | ⟨1, _⟩ => rfl
  | ⟨2, _⟩ => rfl

theorem q_at (x0 : (⟨S4x1024x768, .f32⟩ : BufTy).Contents (Elt Ideal)) (x1 : (⟨S2304x768, .f32⟩ : BufTy).Contents (Elt Ideal)) (x2 : (⟨S2304, .f32⟩ : BufTy).Contents (Elt Ideal)) (h0 : ∀ i, IsReal (x0 i)) (h1 : ∀ i, IsReal (x1 i)) (h2 : ∀ i, IsReal (x2 i))
    (b : Fin 4) (h : Fin 12) (s : Fin 1024) (e : Fin 64) :
    val_main_v20 (F := Ideal) x0 x1 x2 (ix4 b h s e)
      = Yb x0 x1 x2 b s (colQ h e) := by
  rw [val_main_v20_apply, val_main_call0_v4_apply, val_main_call0_v3_apply, val_main_cst_2_apply,
    val_main_call0_v2_apply, val_main_call0_v1_apply, val_main_call0_v0_apply, val_main_cst_1_apply,
    val_main_v19_apply, val_main_v18_apply, val_main_v17_apply, val_main_v16_apply, val_main_v15_apply,
    val_main_cst_0_apply, acc_q]
  simp only [Ideal.addf_def, Ideal.subf_def, Ideal.minimumf_def, Ideal.maximumf_def, Ideal.hostDivf_def, Ideal.hostUnary_floor_def,
    Ideal.ofBits_def]
  have hy : IsReal ((∑ d : Fin 768, x0 (ix3 b s d) * x1 (ix2 (colQ h e) d)) + x2 (ix1 (colQ h e)) * two) :=
    acc_isReal _ _ _ _ (fun _ => h0 _) (fun _ => h1 _) (h2 _) two_isReal
  rw [site_two hy]
  rfl

/-! ### key -/

theorem widx_k (h : Fin 12) (e : Fin 64) (k : Fin 768) (i : S12x64x4x1024.Idx) (h0 : (i 0).val = h.val) (h1 : (i 1).val = e.val) :
    idx_main_v0 (idx_main_v3 (lidx_main_v21 i k)) = ix2 (colK h e) k := by
  funext a
  match a with
  | ⟨0, _⟩ =>
    refine Fin.ext ?_
    show (((i 0).val * 192 + (64 + (i 1).val)) * 768 + k.val) / 768 = 192 * h.val + 64 + e.val
    have := k.isLt; have := e.isLt; omega
  | ⟨1, _⟩ =>
    refine Fin.ext ?_
    show (((i 0).val * 192 + (64 + (i 1).val)) * 768 + k.val) % 768 = k.val
    have := k.isLt; omega

theorem bidx_k (b : Fin 4) (h : Fin 12) (s : Fin 1024) (e : Fin 64) :
    idx_main_v1 (idx_main_v6 (idx_main_v23 (idx_main_v26 (ix4 b h s e)))) = ix1 (colK h e) := by
  funext a
  match a with
  | ⟨0, _⟩ =>
    refine Fin.ext ?_
    show h.val * 192 + (64 + e.val) = 192 * h.val + 64 + e.val
    omega

/-- the accumulator of the projection before it is re-quantized -/
theorem acc_k (x0 : (⟨S4x1024x768, .f32⟩ : BufTy).Contents (Elt Ideal)) (x1 : (⟨S2304x768, .f32⟩ : BufTy).Contents (Elt Ideal)) (x2 : (⟨S2304, .f32⟩ : BufTy).Contents (Elt Ideal)) (b : Fin 4) (h : Fin 12) (s : Fin 1024) (e : Fin 64) :
    val_main_v27 (F := Ideal) x0 x1 x2 (ix4 b h s e)
      = (∑ d : Fin 768, x0 (ix3 b s d) * x1 (ix2 (colK h e) d)) + x2 (ix1 (colK h e)) * two := by
  rw [val_main_v27_apply, val_main_v22_apply, val_main_v21_apply, val_main_v26_apply, val_main_v25_apply,
    val_main_v23_apply, val_main_v24_apply, val_main_cst_3_apply, val_main_v6_apply, val_main_v1_apply, bidx_k]
  simp only [Ideal.addf_def, Ideal.mulf_def, Ideal.ofBits_def]
  refine congrArg (· + x2 (ix1 (colK h e)) * two) ?_
  refine Finset.sum_congr rfl fun k _ => ?_
  rw [val_main_v3_apply, val_main_v0_apply, widx_k h e k (idx_main_v22 (ix4 b h s e)) rfl rfl, mul_comm]
  refine congrArg (· * x1 (ix2 (colK h e) k)) (congrArg x0 ?_)
  funext a
  match a with
  | ⟨0, _⟩ => rfl
  | ⟨1, _⟩ => rfl
  | ⟨2, _⟩ => rfl

theorem k_at (x0 : (⟨S4x1024x768, .f32⟩ : BufTy).Contents (Elt Ideal)) (x1 : (⟨S2304x768, .f32⟩ : BufTy).Contents (Elt Ideal)) (x2 : (⟨S2304, .f32⟩ : BufTy).Contents (Elt Ideal)) (h0 : ∀ i, IsReal (x0 i)) (h1 : ∀ i, IsReal (x1 i)) (h2 : ∀ i, IsReal (x2 i))
    (b : Fin 4) (h : Fin 12) (s : Fin 1024) (e : Fin 64) :
    val_main_v33 (F := Ideal) x0 x1 x2 (ix4 b h s e)
      = Yb x0 x1 x2 b s (colK h e) := by
  rw [val_main_v33_apply, val_main_call1_v4_apply, val_main_call1_v3_apply, val_main_cst_6_apply,
    val_main_call1_v2_apply, val_main_call1_v1_apply, val_main_call1_v0_apply, val_main_cst_5_apply,
    val_main_v32_apply, val_main_v31_apply, val_main_v30_apply, val_main_v29_apply, val_main_v28_apply,
    val_main_cst_4_apply, acc_k]
  simp only [Ideal.addf_def, Ideal.subf_def, Ideal.minimumf_def, Ideal.maximumf_def, Ideal.hostDivf_def, Ideal.hostUnary_floor_def,
    Ideal.ofBits_def]
  have hy : IsReal ((∑ d : Fin 768, x0 (ix3 b s d) * x1 (ix2 (colK h e) d)) + x2 (ix1 (colK h e)) * two) :=
    acc_isReal _ _ _ _ (fun _ => h0 _) (fun _ => h1 _) (h2 _) two_isReal
  rw [site_two hy]
  rfl

/-! ### value -/

theorem widx_v (h : Fin 12) (e : Fin 64) (k : Fin 768) (i : S12x64x4x1024.Idx) (h0 : (i 0).val = h.val) (h1 : (i 1).val = e.val) :
    idx_main_v0 (idx_main_v4 (lidx_main_v34 i k)) = ix2 (colV h e) k := by
  funext a
  match a with
  | ⟨0, _⟩ =>
    refine Fin.ext ?_
    show (((i 0).val * 192 + (128 + (i 1).val)) * 768 + k.val) / 768 = 192 * h.val + 128 + e.val
    have := k.isLt; have := e.isLt; omega
  | ⟨1, _⟩ =>
    refine Fin.ext ?_
    show (((i 0).val * 192 + (128 + (i 1).val)) * 768 + k.val) % 768 = k.val
    have := k.isLt; omega

theorem bidx_v (b : Fin 4) (h : Fin 12) (s : Fin 1024) (e : Fin 64) :
    idx_main_v1 (idx_main_v7 (idx_main_v36 (idx_main_v39 (ix4 b h s e)))) = ix1 (colV h e) := by
  funext a
  match a with
  | ⟨0, _⟩ =>
    refine Fin.ext ?_
    show h.val * 192 + (128 + e.val) = 192 * h.val + 128 + e.val
    omega

/-- the accumulator of the projection before it is re-quantized -/
theorem acc_v (x0 : (⟨S4x1024x768, .f32⟩ : BufTy).Contents (Elt Ideal)) (x1 : (⟨S2304x768, .f32⟩ : BufTy).Contents (Elt Ideal)) (x2 : (⟨S2304, .f32⟩ : BufTy).Contents (Elt Ideal)) (b : Fin 4) (h : Fin 12) (s : Fin 1024) (e : Fin 64) :
    val_main_v40 (F := Ideal) x0 x1 x2 (ix4 b h s e)
      = (∑ d : Fin 768, x0 (ix3 b s d) * x1 (ix2 (colV h e) d)) + x2 (ix1 (colV h e)) * two := by
  rw [val_main_v40_apply, val_main_v35_apply, val_main_v34_apply, val_main_v39_apply, val_main_v38_apply,
    val_main_v36_apply, val_main_v37_apply, val_main_cst_7_apply, val_main_v7_apply, val_main_v1_apply, bidx_v]
  simp only [Ideal.addf_def, Ideal.mulf_def, Ideal.ofBits_def]
  refine congrArg (· + x2 (ix1 (colV h e)) * two) ?_
  refine Finset.sum_congr rfl fun k _ => ?_
  rw [val_main_v4_apply, val_main_v0_apply, widx_v h e k (idx_main_v35 (ix4 b h s e)) rfl rfl, mul_comm]
  refine congrArg (· * x1 (ix2 (colV h e) k)) (congrArg x0 ?_)
  funext a
  match a with
  | ⟨0, _⟩ => rfl
  | ⟨1, _⟩ => rfl
  | ⟨2, _⟩ => rfl

theorem v_at (x0 : (⟨S4x1024x768, .f32⟩ : BufTy).Contents (Elt Ideal)) (x1 : (⟨S2304x768, .f32⟩ : BufTy).Contents (Elt Ideal)) (x2 : (⟨S2304, .f32⟩ : BufTy).Contents (Elt Ideal)) (h0 : ∀ i, IsReal (x0 i)) (h1 : ∀ i, IsReal (x1 i)) (h2 : ∀ i, IsReal (x2 i))
    (b : Fin 4) (h : Fin 12) (s : Fin 1024) (e : Fin 64) :
    val_main_v46 (F := Ideal) x0 x1 x2 (ix4 b h s e)
      = Yb x0 x1 x2 b s (colV h e) := by
  rw [val_main_v46_apply, val_main_call2_v4_apply, val_main_call2_v3_apply, val_main_cst_10_apply,
    val_main_call2_v2_apply, val_main_call2_v1_apply, val_main_call2_v0_apply, val_main_cst_9_apply,
    val_main_v45_apply, val_main_v44_apply, val_main_v43_apply, val_main_v42_apply, val_main_v41_apply,
    val_main_cst_8_apply, acc_v]
  simp only [Ideal.addf_def, Ideal.subf_def, Ideal.minimumf_def, Ideal.maximumf_def, Ideal.hostDivf_def, Ideal.hostUnary_floor_def,
    Ideal.ofBits_def]
  have hy : IsReal ((∑ d : Fin 768, x0 (ix3 b s d) * x1 (ix2 (colV h e) d)) + x2 (ix1 (colV h e)) * two) :=
    acc_isReal _ _ _ _ (fun _ => h0 _) (fun _ => h1 _) (h2 _) two_isReal
  rw [site_two hy]
  rfl

end Cert.QBlock.Ref

end
-- ==== Proof.RefValueC.lean ====
/-
  Attention of the reference read at coordinates: scores, head outputs, and the heads side by side.
-/
import proofs.«107285_j86406152061476_2_alg».proof.Proof.RefValueB

noncomputable section

open scoped BigOperators

namespace Cert.QBlock.Ref

open Idealize.ShloMosaic Idealize.ShloMosaic.ValueIdx Cert.ReferenceIdeal Cert.ReferenceIdeal.Read Cert.QBlock

theorem score_isReal (Y : Fin 1024 → Fin 2304 → EReal) (h : Fin 12) (s t : Fin 1024) : IsReal (score Y h s t) := rq16_isReal _
theorem zhead_isReal (Y : Fin 1024 → Fin 2304 → EReal) (h : Fin 12) (s : Fin 1024) (e : Fin 64) : IsReal (zhead Y h s e) := rq16_isReal _
theorem zatt_isReal (Y : Fin 1024 → Fin 2304 → EReal) (s : Fin 1024) (c : Fin 768) : IsReal (zatt Y s c) := rq16_isReal _

/-! ### scores -/

theorem s_at (x0 : (⟨S4x1024x768, .f32⟩ : BufTy).Contents (Elt Ideal)) (x1 : (⟨S2304x768, .f32⟩ : BufTy).Contents (Elt Ideal)) (x2 : (⟨S2304, .f32⟩ : BufTy).Contents (Elt Ideal)) (h0 : ∀ i, IsReal (x0 i)) (h1 : ∀ i, IsReal (x1 i)) (h2 : ∀ i, IsReal (x2 i))
    (b : Fin 4) (h : Fin 12) (s t : Fin 1024) :
    val_main_v53 (F := Ideal) x0 x1 x2 (ix4 b h s t) = score (Yb x0 x1 x2 b) h s t := by
  have hsum : val_main_v47 (F := Ideal) x0 x1 x2 (ix4 b h s t)
      = ∑ e : Fin 64, Yb x0 x1 x2 b s (colQ h e) * Yb x0 x1 x2 b t (colK h e) := by
    rw [val_main_v47_apply]
    refine Finset.sum_congr rfl fun k _ => ?_
    have hl : lidx_main_v47 (ix4 b h s t) k = ix4 b h s k := by
      funext a
      match a with
      | ⟨0, _⟩ => rfl
      | ⟨1, _⟩ => rfl
      | ⟨2, _⟩ => rfl
      | ⟨3, _⟩ => rfl
    have hr : ridx_main_v47 (ix4 b h s t) k = ix4 b h t k := by
      funext a
      match a with
      | ⟨0, _⟩ => rfl
      | ⟨1, _⟩ => rfl
      | ⟨2, _⟩ => rfl
      | ⟨3, _⟩ => rfl
    rw [hl, hr, q_at x0 x1 x2 h0 h1 h2, k_at x0 x1 x2 h0 h1 h2]
  rw [val_main_v53_apply, val_main_call3_v4_apply, val_main_call3_v3_apply, val_main_cst_13_apply,
    val_main_call3_v2_apply, val_main_call3_v1_apply, val_main_call3_v0_apply, val_main_cst_12_apply,
    val_main_v52_apply, val_main_v51_apply, val_main_v50_apply, val_main_v49_apply, val_main_v48_apply,
    val_main_cst_11_apply]
  rw [hsum]
  simp only [Ideal.addf_def, Ideal.subf_def, Ideal.mulf_def, Ideal.minimumf_def, Ideal.maximumf_def, Ideal.hostDivf_def,
    Ideal.hostUnary_floor_def, Ideal.ofBits_def]
  have hy : IsReal (∑ e : Fin 64, Yb x0 x1 x2 b s (colQ h e) * Yb x0 x1 x2 b t (colK h e)) :=
    dot_isReal _ _ (fun _ => Yb_isReal _ _ _ _ _ _) (fun _ => Yb_isReal _ _ _ _ _ _)
  rw [site_two hy]
  rfl

/-! ### head outputs -/

theorem z_at (x0 : (⟨S4x1024x768, .f32⟩ : BufTy).Contents (Elt Ideal)) (x1 : (⟨S2304x768, .f32⟩ : BufTy).Contents (Elt Ideal)) (x2 : (⟨S2304, .f32⟩ : BufTy).Contents (Elt Ideal)) (h0 : ∀ i, IsReal (x0 i)) (h1 : ∀ i, IsReal (x1 i)) (h2 : ∀ i, IsReal (x2 i))
    (b : Fin 4) (h : Fin 12) (s : Fin 1024) (e : Fin 64) :
    val_main_v60 (F := Ideal) x0 x1 x2 (ix4 b h s e) = zhead (Yb x0 x1 x2 b) h s e := by
  have hsum : val_main_v54 (F := Ideal) x0 x1 x2 (ix4 b h s e)
      = ∑ t : Fin 1024, score (Yb x0 x1 x2 b) h s t * Yb x0 x1 x2 b t (colV h e) := by
    rw [val_main_v54_apply]
    refine Finset.sum_congr rfl fun k _ => ?_
    have hl : lidx_main_v54 (ix4 b h s e) k = ix4 b h s k := by
      funext a
      match a with
      | ⟨0, _⟩ => rfl
      | ⟨1, _⟩ => rfl
      | ⟨2, _⟩ => rfl
      | ⟨3, _⟩ => rfl
    have hr : ridx_main_v54 (ix4 b h s e) k = ix4 b h k e := by
      funext a
      match a with
      | ⟨0, _⟩ => rfl
      | ⟨1, _⟩ => rfl
      | ⟨2, _⟩ => rfl
      | ⟨3, _⟩ => rfl
    rw [hl, hr, s_at x0 x1 x2 h0 h1 h2, v_at x0 x1 x2 h0 h1 h2]
  rw [val_main_v60_apply, val_main_call4_v4_apply, val_main_call4_v3_apply, val_main_cst_16_apply,
    val_main_call4_v2_apply, val_main_call4_v1_apply, val_main_call4_v0_apply, val_main_cst_15_apply,
    val_main_v59_apply, val_main_v58_apply, val_main_v57_apply, val_main_v56_apply, val_main_v55_apply,
    val_main_cst_14_apply]
  rw [hsum]
  simp only [Ideal.addf_def, Ideal.subf_def, Ideal.mulf_def, Ideal.minimumf_def, Ideal.maximumf_def, Ideal.hostDivf_def,
    Ideal.hostUnary_floor_def, Ideal.ofBits_def]
  have hy : IsReal (∑ t : Fin 1024, score (Yb x0 x1 x2 b) h s t * Yb x0 x1 x2 b t (colV h e)) :=
    dot_isReal _ _ (fun _ => score_isReal _ _ _ _) (fun _ => Yb_isReal _ _ _ _ _ _)
  rw [site_two hy]
  rfl

/-! ### the heads side by side: column `c = 64 h + e` -/

theorem zatt_at (x0 : (⟨S4x1024x768, .f32⟩ : BufTy).Contents (Elt Ideal)) (x1 : (⟨S2304x768, .f32⟩ : BufTy).Contents (Elt Ideal)) (x2 : (⟨S2304, .f32⟩ : BufTy).Contents (Elt Ideal)) (h0 : ∀ i, IsReal (x0 i)) (h1 : ∀ i, IsReal (x1 i)) (h2 : ∀ i, IsReal (x2 i))
    (b : Fin 4) (s : Fin 1024) (c : Fin 768) :
    val_main_v62 (F := Ideal) x0 x1 x2 (ix3 b s c) = zatt (Yb x0 x1 x2 b) s c := by
  have hi : idx_main_v61 (idx_main_v62 (ix3 b s c))
      = ix4 b (⟨c.val / 64, by have := c.isLt; omega⟩ : Fin 12) s (⟨c.val % 64, Nat.mod_lt _ (by norm_num)⟩ : Fin 64) := by
    have hb := b.isLt; have hs := s.isLt; have hc := c.isLt
    funext a
    match a with
    | ⟨0, _⟩ =>
      refine Fin.ext ?_
      show ((b.val * 1024 + s.val) * 768 + c.val) / 786432 = b.val
      omega
    | ⟨1, _⟩ =>
      refine Fin.ext ?_
      show ((b.val * 1024 + s.val) * 768 + c.val) / 64 % 12 = c.val / 64
      omega
    | ⟨2, _⟩ =>
      refine Fin.ext ?_
      show ((b.val * 1024 + s.val) * 768 + c.val) / 768 % 1024 = s.val
      omega
    | ⟨3, _⟩ =>
      refine Fin.ext ?_
      show ((b.val * 1024 + s.val) * 768 + c.val) % 64 = c.val % 64
      omega
  rw [val_main_v62_apply, val_main_v61_apply, hi, z_at x0 x1 x2 h0 h1 h2]
  rfl

end Cert.QBlock.Ref

end
-- ==== Proof.RefValueD.lean ====
/-
  The output projection with its residual, read at coordinates.
-/
import proofs.«107285_j86406152061476_2_alg».proof.Proof.RefValueC

noncomputable section

open scoped BigOperators

namespace Cert.QBlock.Ref

open Idealize.ShloMosaic Idealize.ShloMosaic.ValueIdx Cert.ReferenceIdeal Cert.ReferenceIdeal.Read Cert.QBlock

/-- the attention block's output for batch element `b`, token `s` -/
def X1 (x0 : (⟨S4x1024x768, .f32⟩ : BufTy).Contents (Elt Ideal)) (x1 : (⟨S2304x768, .f32⟩ : BufTy).Contents (Elt Ideal)) (x2 : (⟨S2304, .f32⟩ : BufTy).Contents (Elt Ideal)) (x3 : (⟨S768x768, .f32⟩ : BufTy).Contents (Elt Ideal)) (x4 : (⟨S768, .f32⟩ : BufTy).Contents (Elt Ideal)) (b : Fin 4) (s : Fin 1024) : Fin 768 → EReal :=
  x1row (fun o d => x3 (ix2 o d)) (fun o => x4 (ix1 o)) (zatt (Yb x0 x1 x2 b) s) (fun d => x0 (ix3 b s d))

theorem X1_isReal (x0 : (⟨S4x1024x768, .f32⟩ : BufTy).Contents (Elt Ideal)) (x1 : (⟨S2304x768, .f32⟩ : BufTy).Contents (Elt Ideal)) (x2 : (⟨S2304, .f32⟩ : BufTy).Contents (Elt Ideal)) (x3 : (⟨S768x768, .f32⟩ : BufTy).Contents (Elt Ideal)) (x4 : (⟨S768, .f32⟩ : BufTy).Contents (Elt Ideal)) (b : Fin 4) (s : Fin 1024) (o : Fin 768) : IsReal (X1 x0 x1 x2 x3 x4 b s o) :=
  (rq16_isReal _).add (rq16u_isReal _)

theorem x1_at (x0 : (⟨S4x1024x768, .f32⟩ : BufTy).Contents (Elt Ideal)) (x1 : (⟨S2304x768, .f32⟩ : BufTy).Contents (Elt Ideal)) (x2 : (⟨S2304, .f32⟩ : BufTy).Contents (Elt Ideal)) (x3 : (⟨S768x768, .f32⟩ : BufTy).Contents (Elt Ideal)) (x4 : (⟨S768, .f32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i))
    (b : Fin 4) (s : Fin 1024) (o : Fin 768) :
    val_main_v81 (F := Ideal) x0 x1 x2 x3 x4 (ix3 b s o) = X1 x0 x1 x2 x3 x4 b s o := by
  have hacc : val_main_v68 (F := Ideal) x0 x1 x2 x3 x4 (ix3 b s o)
      = (∑ d : Fin 768, zatt (Yb x0 x1 x2 b) s d * x3 (ix2 o d)) + x4 (ix1 o) * two := by
    have hb : idx_main_v66 (idx_main_v67 (ix3 b s o)) = ix1 o := by
      funext a
      match a with
      | ⟨0, _⟩ => rfl
    rw [val_main_v68_apply, val_main_v63_apply, val_main_v67_apply, val_main_v66_apply, val_main_v65_apply, val_main_v64_apply,
      val_main_cst_17_apply, hb]
    simp only [Ideal.addf_def, Ideal.mulf_def, Ideal.ofBits_def]
    refine congrArg (· + x4 (ix1 o) * two) ?_
    refine Finset.sum_congr rfl fun k _ => ?_
    have hl : lidx_main_v63 (ix3 b s o) k = ix3 b s k := by
      funext a
      match a with
      | ⟨0, _⟩ => rfl
      | ⟨1, _⟩ => rfl
      | ⟨2, _⟩ => rfl
    have hr : ridx_main_v63 (ix3 b s o) k = ix2 o k := by
      funext a
      match a with
      | ⟨0, _⟩ => rfl
      | ⟨1, _⟩ => rfl
    rw [hl, hr, zatt_at x0 x1 x2 h0 h1 h2]
  have hA : val_main_v74 (F := Ideal) x0 x1 x2 x3 x4 (ix3 b s o)
      = rq16 ((∑ d : Fin 768, zatt (Yb x0 x1 x2 b) s d * x3 (ix2 o d)) + x4 (ix1 o) * two) := by
    rw [val_main_v74_apply, val_main_call5_v4_apply, val_main_call5_v3_apply, val_main_cst_20_apply,
    val_main_call5_v2_apply, val_main_call5_v1_apply, val_main_call5_v0_apply, val_main_cst_19_apply,
    val_main_v73_apply, val_main_v72_apply, val_main_v71_apply, val_main_v70_apply, val_main_v69_apply,
    val_main_cst_18_apply]
    rw [hacc]
    simp only [Ideal.addf_def, Ideal.subf_def, Ideal.mulf_def, Ideal.minimumf_def, Ideal.maximumf_def, Ideal.hostDivf_def,
    Ideal.hostUnary_floor_def, Ideal.ofBits_def]
    have hy : IsReal ((∑ d : Fin 768, zatt (Yb x0 x1 x2 b) s d * x3 (ix2 o d)) + x4 (ix1 o) * two) :=
      acc_isReal _ _ _ _ (fun _ => zatt_isReal _ _ _) (fun _ => h3 _) (h4 _) two_isReal
    rw [site_two hy]
  have hB : val_main_v80 (F := Ideal) x0 (ix3 b s o) = rq16u (x0 (ix3 b s o)) := by
    rw [val_main_v80_apply, val_main_call6_v4_apply, val_main_call6_v3_apply, val_main_cst_23_apply,
    val_main_call6_v2_apply, val_main_call6_v1_apply, val_main_call6_v0_apply, val_main_cst_22_apply,
    val_main_v79_apply, val_main_v78_apply, val_main_v77_apply, val_main_v76_apply, val_main_v75_apply,
    val_main_cst_21_apply]
    simp only [Ideal.addf_def, Ideal.subf_def, Ideal.mulf_def, Ideal.minimumf_def, Ideal.maximumf_def, Ideal.hostDivf_def,
    Ideal.hostUnary_floor_def, Ideal.ofBits_def]
    rw [site_one (h0 (ix3 b s o))]
  rw [val_main_v81_apply, hA, hB]
  rfl

end Cert.QBlock.Ref

end
-- ==== Proof.RefValueE.lean ====
/-
  The MLP of the reference read at coordinates, and the reference as the specification.
-/
import proofs.«107285_j86406152061476_2_alg».proof.Proof.RefValueD

noncomputable section

open scoped BigOperators

namespace Cert.QBlock.Ref

open Idealize.ShloMosaic Idealize.ShloMosaic.ValueIdx Cert.ReferenceIdeal Cert.ReferenceIdeal.Read Cert.QBlock

theorem hidrow_isReal (W1 : Fin 3072 → Fin 768 → EReal) (b1 : Fin 3072 → EReal) (x : Fin 768 → EReal) (j : Fin 3072) :
    IsReal (hidrow W1 b1 x j) := rq32_isReal _

/-! ### the hidden layer -/

theorem hid_at (x0 : (⟨S4x1024x768, .f32⟩ : BufTy).Contents (Elt Ideal)) (x1 : (⟨S2304x768, .f32⟩ : BufTy).Contents (Elt Ideal)) (x2 : (⟨S2304, .f32⟩ : BufTy).Contents (Elt Ideal)) (x3 : (⟨S768x768, .f32⟩ : BufTy).Contents (Elt Ideal)) (x4 : (⟨S768, .f32⟩ : BufTy).Contents (Elt Ideal)) (x5 : (⟨S3072x768, .f32⟩ : BufTy).Contents (Elt Ideal)) (x6 : (⟨S3072, .f32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i))
    (b : Fin 4) (s : Fin 1024) (j : Fin 3072) :
    val_main_v93 (F := Ideal) x0 x1 x2 x3 x4 x5 x6 (ix3 b s j) = hidrow (fun j d => x5 (ix2 j d)) (fun j => x6 (ix1 j)) (X1 x0 x1 x2 x3 x4 b s) j := by
  have hacc : val_main_v87 (F := Ideal) x0 x1 x2 x3 x4 x5 x6 (ix3 b s j)
      = (∑ d : Fin 768, X1 x0 x1 x2 x3 x4 b s d * x5 (ix2 j d)) + x6 (ix1 j) * two := by
    have hb : idx_main_v85 (idx_main_v86 (ix3 b s j)) = ix1 j := by
      funext a
      match a with
      | ⟨0, _⟩ => rfl
    rw [val_main_v87_apply, val_main_v82_apply, val_main_v86_apply, val_main_v85_apply, val_main_v84_apply, val_main_v83_apply,
      val_main_cst_24_apply, hb]
    simp only [Ideal.addf_def, Ideal.mulf_def, Ideal.ofBits_def]
    refine congrArg (· + x6 (ix1 j) * two) ?_
    refine Finset.sum_congr rfl fun k _ => ?_
    have hl : lidx_main_v82 (ix3 b s j) k = ix3 b s k := by
      funext a
      match a with
      | ⟨0, _⟩ => rfl
      | ⟨1, _⟩ => rfl
      | ⟨2, _⟩ => rfl
    have hr : ridx_main_v82 (ix3 b s j) k = ix2 j k := by
      funext a
      match a with
      | ⟨0, _⟩ => rfl
      | ⟨1, _⟩ => rfl
    rw [hl, hr, x1_at x0 x1 x2 x3 x4 h0 h1 h2 h3 h4]
  rw [val_main_v93_apply, val_main_call7_v4_apply, val_main_call7_v3_apply, val_main_cst_27_apply,
    val_main_call7_v2_apply, val_main_call7_v1_apply, val_main_call7_v0_apply, val_main_cst_26_apply,
    val_main_v92_apply, val_main_v91_apply, val_main_v90_apply, val_main_v89_apply, val_main_v88_apply,
    val_main_cst_25_apply]
  rw [hacc]
  simp only [Ideal.addf_def, Ideal.subf_def, Ideal.mulf_def, Ideal.minimumf_def, Ideal.maximumf_def, Ideal.hostDivf_def,
    Ideal.hostUnary_floor_def, Ideal.ofBits_def]
  have hy : IsReal ((∑ d : Fin 768, X1 x0 x1 x2 x3 x4 b s d * x5 (ix2 j d)) + x6 (ix1 j) * two) :=
    acc_isReal _ _ _ _ (fun _ => X1_isReal _ _ _ _ _ _ _ _) (fun _ => h5 _) (h6 _) two_isReal
  rw [site_128 hy]
  rfl

/-! ### the block's output -/

theorem out_at (x0 : (⟨S4x1024x768, .f32⟩ : BufTy).Contents (Elt Ideal)) (x1 : (⟨S2304x768, .f32⟩ : BufTy).Contents (Elt Ideal)) (x2 : (⟨S2304, .f32⟩ : BufTy).Contents (Elt Ideal)) (x3 : (⟨S768x768, .f32⟩ : BufTy).Contents (Elt Ideal)) (x4 : (⟨S768, .f32⟩ : BufTy).Contents (Elt Ideal)) (x5 : (⟨S3072x768, .f32⟩ : BufTy).Contents (Elt Ideal)) (x6 : (⟨S3072, .f32⟩ : BufTy).Contents (Elt Ideal)) (x7 : (⟨S768x3072, .f32⟩ : BufTy).Contents (Elt Ideal)) (x8 : (⟨S768, .f32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i))
    (b : Fin 4) (s : Fin 1024) (o : Fin 768) :
    val_main_v112 (F := Ideal) x0 x1 x2 x3 x4 x5 x6 x7 x8 (ix3 b s o)
      = outrow (fun j d => x5 (ix2 j d)) (fun j => x6 (ix1 j)) (fun o j => x7 (ix2 o j)) (fun o => x8 (ix1 o)) (X1 x0 x1 x2 x3 x4 b s) o := by
  have hacc : val_main_v99 (F := Ideal) x0 x1 x2 x3 x4 x5 x6 x7 x8 (ix3 b s o)
      = (∑ j : Fin 3072, hidrow (fun j d => x5 (ix2 j d)) (fun j => x6 (ix1 j)) (X1 x0 x1 x2 x3 x4 b s) j * x7 (ix2 o j)) + x8 (ix1 o) * four := by
    have hb : idx_main_v97 (idx_main_v98 (ix3 b s o)) = ix1 o := by
      funext a
      match a with
      | ⟨0, _⟩ => rfl
    rw [val_main_v99_apply, val_main_v94_apply, val_main_v98_apply, val_main_v97_apply, val_main_v96_apply, val_main_v95_apply,
      val_main_cst_28_apply, hb]
    simp only [Ideal.addf_def, Ideal.mulf_def, Ideal.ofBits_def]
    refine congrArg (· + x8 (ix1 o) * four) ?_
    refine Finset.sum_congr rfl fun k _ => ?_
    have hl : lidx_main_v94 (ix3 b s o) k = ix3 b s k := by
      funext a
      match a with
      | ⟨0, _⟩ => rfl
      | ⟨1, _⟩ => rfl
      | ⟨2, _⟩ => rfl
    have hr : ridx_main_v94 (ix3 b s o) k = ix2 o k := by
      funext a
      match a with
      | ⟨0, _⟩ => rfl
      | ⟨1, _⟩ => rfl
    rw [hl, hr, hid_at x0 x1 x2 x3 x4 x5 x6 h0 h1 h2 h3 h4 h5 h6]
  have hA : val_main_v105 (F := Ideal) x0 x1 x2 x3 x4 x5 x6 x7 x8 (ix3 b s o)
      = rq31 ((∑ j : Fin 3072, hidrow (fun j d => x5 (ix2 j d)) (fun j => x6 (ix1 j)) (X1 x0 x1 x2 x3 x4 b s) j * x7 (ix2 o j)) + x8 (ix1 o) * four) := by
    rw [val_main_v105_apply, val_main_call8_v4_apply, val_main_call8_v3_apply, val_main_cst_31_apply,
    val_main_call8_v2_apply, val_main_call8_v1_apply, val_main_call8_v0_apply, val_main_cst_30_apply,
    val_main_v104_apply, val_main_v103_apply, val_main_v102_apply, val_main_v101_apply, val_main_v100_apply,
    val_main_cst_29_apply]
    rw [hacc]
    simp only [Ideal.addf_def, Ideal.subf_def, Ideal.mulf_def, Ideal.minimumf_def, Ideal.maximumf_def, Ideal.hostDivf_def,
    Ideal.hostUnary_floor_def, Ideal.ofBits_def]
    have hy : IsReal ((∑ j : Fin 3072, hidrow (fun j d => x5 (ix2 j d)) (fun j => x6 (ix1 j)) (X1 x0 x1 x2 x3 x4 b s) j * x7 (ix2 o j)) + x8 (ix1 o) * four) :=
      acc_isReal _ _ _ _ (fun _ => hidrow_isReal _ _ _ _) (fun _ => h7 _) (h8 _) four_isReal
    rw [site_512 hy]
  have hB : val_main_v111 (F := Ideal) x0 x1 x2 x3 x4 (ix3 b s o) = rq31u (X1 x0 x1 x2 x3 x4 b s o) := by
    rw [val_main_v111_apply, val_main_call9_v4_apply, val_main_call9_v3_apply, val_main_cst_34_apply,
    val_main_call9_v2_apply, val_main_call9_v1_apply, val_main_call9_v0_apply, val_main_cst_33_apply,
    val_main_v110_apply, val_main_v109_apply, val_main_v108_apply, val_main_v107_apply, val_main_v106_apply,
    val_main_cst_32_apply]
    rw [x1_at x0 x1 x2 x3 x4 h0 h1 h2 h3 h4]
    simp only [Ideal.addf_def, Ideal.subf_def, Ideal.mulf_def, Ideal.minimumf_def, Ideal.maximumf_def, Ideal.hostDivf_def,
    Ideal.hostUnary_floor_def, Ideal.ofBits_def]
    rw [site_one (X1_isReal x0 x1 x2 x3 x4 b s o)]
  rw [val_main_v112_apply, hA, hB]
  rfl

end Cert.QBlock.Ref

end
-- ==== Proof.RefValue.lean ====
/-
  The reference program computes the specification's block function, on real inputs.
-/
import proofs.«107285_j86406152061476_2_alg».proof.Proof.RefValueE

noncomputable section

open scoped BigOperators

namespace Cert.QBlock.Ref

open Idealize.ShloMosaic Idealize.ShloMosaic.ValueIdx Cert.ReferenceIdeal Cert.ReferenceIdeal.Read Cert.QBlock

theorem ref_eq (x0 : FVec Ideal S4x1024x768 .f32) (x1 : FVec Ideal S2304x768 .f32) (x2 : FVec Ideal S2304 .f32) (x3 : FVec Ideal S768x768 .f32) (x4 : FVec Ideal S768 .f32)
    (x5 : FVec Ideal S3072x768 .f32) (x6 : FVec Ideal S3072 .f32) (x7 : FVec Ideal S768x3072 .f32) (x8 : FVec Ideal S768 .f32)
    (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) :
    Cert.ReferenceIdeal.Read.val_main_v112 (F := Ideal) x0 x1 x2 x3 x4 x5 x6 x7 x8 = Cert.QBlock.G x0 x1 x2 x3 x4 x5 x6 x7 x8 := by
  funext i
  obtain ⟨b, s, o, rfl⟩ : ∃ (b : Fin 4) (s : Fin 1024) (o : Fin 768), i = ix3 b s o := ⟨i 0, i 1, i 2, eq_ix3 i⟩
  rw [out_at x0 x1 x2 x3 x4 x5 x6 x7 x8 h0 h1 h2 h3 h4 h5 h6 h7 h8]
  rfl

end Cert.QBlock.Ref

end
-- ==== Proof.lean ====
/-
  A quantized transformer block (fused q/k/v projection, twelve attention heads without softmax, output
  projection, residual, two-layer MLP, residual; every activation re-quantized to a fixed-point grid by
  "divide by a power of two, round down, saturate") as two pipelined kernels, against its plain reference.

  At the ideal instance a float is an extended real and every operation is exact, so both programs compute
  the same sums of the same products, only arranged differently: the kernel projects q, k and v with one
  full-width product and slices the heads out of it, works one batch element and then 512 tokens at a time,
  and passes the attention output between its two calls through flattened arrays; the reference projects
  per head from slices of the weight, carries a head axis, and never flattens.  Sums and products of
  extended reals are commutative and associative, which covers all of that.  One difference needs more:
  the reference rounds by the straight-through form  x + (⌊x⌋ - x),  which is ⌊x⌋ only on a REAL x (at +∞
  it is -∞).  Every rounded quantity here is a finite sum of products of reals — the inputs are finite by
  the precondition, and every re-quantized value lies between two reals — so the two roundings agree.

  The proof: one specification of the block over coordinate functions; the kernel's two calls and the
  reference are each shown to compute it index by index; the kernel's run is read off its generated frame
  (each call's output array is one function of its input arrays because the blocks the grid points write
  back are restrictions of it and cover it; the host reshapes between the calls keep row-major positions);
  the reference's run is the fold of its host operations over the launch memory, read one operation at a time.
-/
import proofs.«107285_j86406152061476_2_alg».proof.Defs
import proofs.«107285_j86406152061476_2_alg».proof.Proof.Gen.Kernel
import proofs.«107285_j86406152061476_2_alg».proof.Proof.Gen.Kernel.Skeleton
import proofs.«107285_j86406152061476_2_alg».proof.Proof.Gen.Kernel.Launch
import proofs.«107285_j86406152061476_2_alg».proof.Proof.Gen.Kernel.Points
import proofs.«107285_j86406152061476_2_alg».proof.Proof.Gen.Kernel.Frame
import proofs.«107285_j86406152061476_2_alg».proof.Proof.Gen.KernelIdeal
import proofs.«107285_j86406152061476_2_alg».proof.Proof.Gen.KernelIdeal.Skeleton
import proofs.«107285_j86406152061476_2_alg».proof.Proof.Gen.KernelIdeal.Launch
import proofs.«107285_j86406152061476_2_alg».proof.Proof.Gen.KernelIdeal.Points
import proofs.«107285_j86406152061476_2_alg».proof.Proof.Gen.KernelIdeal.Frame
import proofs.«107285_j86406152061476_2_alg».proof.Proof.Gen.ReferenceIdeal
import proofs.«107285_j86406152061476_2_alg».proof.Proof.Gen.Pre_finite_inputs
import proofs.«107285_j86406152061476_2_alg».proof.Proof.RefRun
import proofs.«107285_j86406152061476_2_alg».proof.Proof.RefRead
import proofs.«107285_j86406152061476_2_alg».proof.Proof.Spec
import proofs.«107285_j86406152061476_2_alg».proof.Proof.Finite
import proofs.«107285_j86406152061476_2_alg».proof.Proof.Run
import proofs.«107285_j86406152061476_2_alg».proof.Proof.KernelValue
import proofs.«107285_j86406152061476_2_alg».proof.Proof.Attn
import proofs.«107285_j86406152061476_2_alg».proof.Proof.Mlp
import proofs.«107285_j86406152061476_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification's block function of the argument arrays: the kernel by
    its two calls' closed forms, the reference by its operations read at an index, where the precondition makes
    every input a real so that the reference's straight-through rounding is the plain one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.QBlock.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.QBlock.KV.kernel_value m ρ Cert.QBlock.Attn.out0_3_apply Cert.QBlock.Mlp.out1_8_apply c), (h c).2⟩)
      (Cert.QBlock.Run.run_value (F := Ideal) m ρ)
  · refine (θ_run Cert.ReferenceIdeal.defs _ _).mono (fun _ h c => ⟨?_, (h c).2⟩)
      (Cert.ReferenceIdeal.Value.run (F := Ideal) m' ρ')
    haveI : Cert.Pre_finite_inputs.Facts := Cert.Pre_finite_inputs.Gen.facts
    obtain ⟨r0, r1, r2, r3, r4, r5, r6, r7, r8⟩ := Cert.QBlock.Finite.reals_of_pre _ _ _ _ _ _ _ _ _ (hpre c)
    obtain ⟨a0, a1, a2, a3, a4, a5, a6, a7, a8⟩ := hagree c
    rw [(h c).1, Cert.ReferenceIdeal.Read.val_main_v112_eq, a0, a1, a2, a3, a4, a5, a6, a7, a8]
    exact Cert.QBlock.Ref.ref_eq _ _ _ _ _ _ _ _ _ r0 r1 r2 r3 r4 r5 r6 r7 r8

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
